-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x4096 : Shape := ⟨2, ![4096, 4096]⟩
abbrev S4096x1 : Shape := ⟨2, ![4096, 1]⟩
abbrev S1024x1 : Shape := ⟨2, ![1024, 1]⟩

abbrev nBuf : Space → Nat
  | .hbm => 18
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S4096x1024, .bf16⟩
  | .hbm, ⟨11, _⟩ => ⟨S1x1024, .f32⟩
  | .hbm, ⟨12, _⟩ => ⟨S4096x1024, .bf16⟩
  | .hbm, ⟨13, _⟩ => ⟨S4096x4096, .bf16⟩
  | .hbm, ⟨14, _⟩ => ⟨S4096x1, .f32⟩
  | .hbm, ⟨15, _⟩ => ⟨S1x1024, .f32⟩
  | .hbm, ⟨16, _⟩ => ⟨S4096x1024, .bf16⟩
  | .hbm, ⟨17, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1x1024, .f32⟩
  | .local _ .vmem, ⟨24, _⟩ => ⟨S1024x1, .f32⟩
  | .local _ .vmem, ⟨25, _⟩ => ⟨S1024x1, .f32⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  transposes_S1024x1024_p1_0_S1024x1024 : S1024x1024.Transposes [1, 0] S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .bf16 = 32 ∨ (Rect.block (s := S4096x4096) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x1024.size a
  hwx3_0 : ∀ i : grid3.Coords, EltTy.bits .f32 = 32 ∨ (Rect.block (s := S4096x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .f32 = 32 ∨ (Rect.block (s := S1024x1024) S1024x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .f32 = 32 ∨ (Rect.block (s := S4096x1) S1024x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S4096x1024.size a
  hwx3_4 : ∀ i : grid3.Coords, EltTy.bits .bf16 = 32 ∨ (Rect.block (s := S4096x1024) S1024x1024.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x1024.size a
  hwx4_1 : ∀ i : grid4.Coords, EltTy.bits .bf16 = 32 ∨ (Rect.block (s := S4096x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x1024.size a
  hwx4_2 : ∀ i : grid4.Coords, EltTy.bits .f32 = 32 ∨ (Rect.block (s := S4096x1024) S1024x1024.size (cc4_transform_2 i) (hinb4_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S1024x1024.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S1024x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4_1) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v4_0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KbRegion0.lean ====
import proofs.«123334_j33835752358180_2_alg».proof.Proof.Gen.Kernel.Launch
import proofs.«123334_j33835752358180_2_alg».proof.Proof.Gen.Kernel.Skeleton
import proofs.«123334_j33835752358180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: the projection kernel `cc0__linear_kernel`, at the buffer contents `V` found when the region is entered.
One control case: every input window's block is loaded whole, one payload is computed, and the output
window's block is stored whole. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched
    there (when it was not, the block index has not moved since the point before), for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched
    there (when it was not, the block index has not moved since the point before), for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched
    there (when it was not, the block index has not moved since the point before), for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_S1024x1024 : Rect S1024x1024 := Rect.unit (s := S1024x1024) ![0, 0] S1024x1024.size inb_S1024x1024_S1024x1024_0_0
abbrev r0_S1x1024 : Rect S1x1024 := Rect.unit (s := S1x1024) ![0, 0] S1x1024.size inb_S1x1024_S1x1024_0_0

/-! ## What the body leaves in the output window's buffer -/

/-- Window 3's staging buffer after the body, from the input windows' blocks: its one store, of the payload
    computed from the whole-buffer loads. -/
def out0_3 (x0 : Vec F S1024x1024 .f32) (x1 : Vec F S1024x1024 .f32) (x2 : Vec F S1x1024 .f32) : Vec F S1024x1024 .bf16 :=
  View.canon [⟨r0_S1024x1024, k0_pay1 (View.ld x0 r0_S1024x1024) (View.ld x1 r0_S1024x1024) (View.ld x2 r0_S1x1024)⟩]

/-- The one store is of the whole buffer, so it covers it. -/
theorem cover0_3 (p0 : Vec F S1024x1024 .bf16) (y : S1024x1024.Idx) :
    ∃ pc ∈ ([⟨r0_S1024x1024, p0⟩] : List (View.Piece (Elt F) S1024x1024 .bf16)), y ∈ pc.1.set :=
  View.cover_of_tiled [⟨r0_S1024x1024, p0⟩] S1024x1024.size (by rfl) y

/-! ## The body's triple -/

set_option maxHeartbeats 1000000 in
/-- The kernel body on whole staging memrefs, the inputs' at read contents `xW` and the output's at anything, runs
    to the continuation holding the inputs' as they were and the output's at `out0_3` of the inputs'. -/
theorem sound_kernel0 (c : Dev nD) (E : Set ℕ) (i : grid0.Coords) (arg0 : Memref sig .tc .vmem S1024x1024 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant that of
    a body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbRegion1.lean ====
import proofs.«123334_j33835752358180_2_alg».proof.Proof.Gen.Kernel.Launch
import proofs.«123334_j33835752358180_2_alg».proof.Proof.Gen.Kernel.Skeleton
import proofs.«123334_j33835752358180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the projection kernel `cc1__linear_kernel`, at the buffer contents `V` found when the region is entered.
One control case: every input window's block is loaded whole, one payload is computed, and the output
window's block is stored whole. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched
    there (when it was not, the block index has not moved since the point before), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched
    there (when it was not, the block index has not moved since the point before), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched
    there (when it was not, the block index has not moved since the point before), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_S1024x1024 : Rect S1024x1024 := Rect.unit (s := S1024x1024) ![0, 0] S1024x1024.size inb_S1024x1024_S1024x1024_0_0
abbrev r1_S1x1024 : Rect S1x1024 := Rect.unit (s := S1x1024) ![0, 0] S1x1024.size inb_S1x1024_S1x1024_0_0

/-! ## What the body leaves in the output window's buffer -/

/-- Window 3's staging buffer after the body, from the input windows' blocks: its one store, of the payload
    computed from the whole-buffer loads. -/
def out1_3 (x0 : Vec F S1024x1024 .f32) (x1 : Vec F S1024x1024 .f32) (x2 : Vec F S1x1024 .f32) : Vec F S1024x1024 .bf16 :=
  View.canon [⟨r1_S1024x1024, k1_pay1 (View.ld x0 r1_S1024x1024) (View.ld x1 r1_S1024x1024) (View.ld x2 r1_S1x1024)⟩]

/-- The one store is of the whole buffer, so it covers it. -/
theorem cover1_3 (p0 : Vec F S1024x1024 .bf16) (y : S1024x1024.Idx) :
    ∃ pc ∈ ([⟨r1_S1024x1024, p0⟩] : List (View.Piece (Elt F) S1024x1024 .bf16)), y ∈ pc.1.set :=
  View.cover_of_tiled [⟨r1_S1024x1024, p0⟩] S1024x1024.size (by rfl) y

/-! ## The body's triple -/

set_option maxHeartbeats 1000000 in
/-- The kernel body on whole staging memrefs, the inputs' at read contents `xW` and the output's at anything, runs
    to the continuation holding the inputs' as they were and the output's at `out1_3` of the inputs'. -/
theorem sound_kernel1 (c : Dev nD) (E : Set ℕ) (i : grid1.Coords) (arg0 : Memref sig .tc .vmem S1024x1024 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant that of
    a body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbRegion3.lean ====
import proofs.«123334_j33835752358180_2_alg».proof.Proof.Gen.Kernel.Launch
import proofs.«123334_j33835752358180_2_alg».proof.Proof.Gen.Kernel.Skeleton
import proofs.«123334_j33835752358180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 3: the projection kernel `cc3__linear_scaled_kernel`, at the buffer contents `V` found when the region is entered.
One control case: every input window's block is loaded whole, one payload is computed, and the output
window's block is stored whole. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched
    there (when it was not, the block index has not moved since the point before), for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched
    there (when it was not, the block index has not moved since the point before), for any proof data whose
    array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched
    there (when it was not, the block index has not moved since the point before), for any proof data whose
    array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not it was fetched
    there (when it was not, the block index has not moved since the point before), for any proof data whose
    array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each the whole of its buffer -/

abbrev r3_S1024x1024 : Rect S1024x1024 := Rect.unit (s := S1024x1024) ![0, 0] S1024x1024.size inb_S1024x1024_S1024x1024_0_0
abbrev r3_S1x1024 : Rect S1x1024 := Rect.unit (s := S1x1024) ![0, 0] S1x1024.size inb_S1x1024_S1x1024_0_0
abbrev r3_S1024x1 : Rect S1024x1 := Rect.unit (s := S1024x1) ![0, 0] S1024x1.size inb_S1024x1_S1024x1_0_0

/-! ## What the body leaves in the output window's buffer -/

/-- Window 4's staging buffer after the body, from the input windows' blocks: its one store, of the payload
    computed from the whole-buffer loads. -/
def out3_4 (x0 : Vec F S1024x1024 .f32) (x1 : Vec F S1024x1024 .f32) (x2 : Vec F S1x1024 .f32) (x3 : Vec F S1024x1 .f32) : Vec F S1024x1024 .bf16 :=
  View.canon [⟨r3_S1024x1024, k3_pay1 (View.ld x0 r3_S1024x1024) (View.ld x1 r3_S1024x1024) (View.ld x2 r3_S1x1024) (View.ld x3 r3_S1024x1)⟩]

/-- The one store is of the whole buffer, so it covers it. -/
theorem cover3_4 (p0 : Vec F S1024x1024 .bf16) (y : S1024x1024.Idx) :
    ∃ pc ∈ ([⟨r3_S1024x1024, p0⟩] : List (View.Piece (Elt F) S1024x1024 .bf16)), y ∈ pc.1.set :=
  View.cover_of_tiled [⟨r3_S1024x1024, p0⟩] S1024x1024.size (by rfl) y

/-! ## The body's triple -/

set_option maxHeartbeats 1000000 in
/-- The kernel body on whole staging memrefs, the inputs' at read contents `xW` and the output's at anything, runs
    to the continuation holding the inputs' as they were and the output's at `out3_4` of the inputs'. -/
theorem sound_kernel3 (c : Dev nD) (E : Set ℕ) (i : grid3.Coords) (arg0 : Memref sig .tc .vmem S1024x1024 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1024x1 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (x3 : Vec F S1024x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__linear_scaled_kernel i arg0 harg0 arg1 harg1 arg2 harg2 arg3 harg3 arg4 harg4) K := by
  simp only [cc3__linear_scaled_kernel_eq_skeleton]; unfold cc3__linear_scaled_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them; after the body at point `t`
    each input's buffer at its block and the output's at `out3_4` of the input blocks; the invariant that of
    a body touching nothing but its windows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KbRegion4.lean ====
/-
  Region 4 of the attention head: the output kernel e·V', accumulated over the grid's second axis in a scratch
  buffer. The proof data of its pipeline, the body's triple in each of the three control cases, and the body
  obligation; generic in the float interpretation.
-/
import proofs.«123334_j33835752358180_2_alg».proof.Proof.Gen.Kernel.Launch
import proofs.«123334_j33835752358180_2_alg».proof.Proof.Gen.Kernel.Skeleton
import proofs.«123334_j33835752358180_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # Region 4: the output kernel (grid 4 × 4), at the entry contents `V`

Point `t = (qi, kj)`. Windows 0 and 1 are the inputs' blocks `(qi, kj)` and `(kj, 0)`; window 2 is the output block
`(qi, 0)`, stored only at `kj = 3`. The accumulator lives in a scratch buffer carried from point to point: zeroed at
`kj = 0`, increased by the product of the two input blocks at every point, copied to the output at `kj = 3`. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses and what its stores leave -/

/-- Every load and store of the body goes through the whole 1024 × 1024 rectangle at offset zero. -/
abbrev r4 : Rect S1024x1024 := Rect.unit (s := S1024x1024) ![0, 0] S1024x1024.size inb_S1024x1024_S1024x1024_0_0

theorem hz4 : (![0, 0] : Fin S1024x1024.rank → ℕ) = fun _ => 0 := by
  funext a; fin_cases a <;> rfl

/-- The accumulator after the zeroing store: the zero block. -/
def zero4 : Vec F S1024x1024 .f32 := k4_pay1 (F := F)

/-- The accumulator after one accumulation step: the old accumulator `xs` plus the product of the blocks `x0`, `x1`. -/
def step4 (xs : Vec F S1024x1024 .f32) (x0 x1 : Vec F S1024x1024 .bf16) : Vec F S1024x1024 .f32 :=
  k4_pay2 xs x0 x1

/-- A list of stores whose last one goes through the whole rectangle covers the buffer. -/
theorem cover4 (p : Vec F S1024x1024 .f32) (L : List (View.Piece (Elt F) S1024x1024 .f32)) (y : S1024x1024.Idx) :
    ∃ pc ∈ ((⟨r4, p⟩ :: L : List (View.Piece (Elt F) S1024x1024 .f32))), y ∈ pc.1.set :=
  ⟨_, List.mem_cons_self, View.mem_set_unit_zero (S := S1024x1024) hz4 inb_S1024x1024_S1024x1024_0_0 y⟩

/-- A store through the whole rectangle, last, leaves its payload. -/
theorem canon_cons_r4 (w : Vec F S1024x1024 .f32) (L : List (View.Piece (Elt F) S1024x1024 .f32)) :
    View.canon ((⟨r4, w⟩ : View.Piece (Elt F) S1024x1024 .f32) :: L) = w :=
  View.canon_cons_unit_zero (S := S1024x1024) hz4 inb_S1024x1024_S1024x1024_0_0 w L

/-! ## The body's branch conditions -/

/-- The condition of the first `scf.if` (zero the accumulator): `kj = 0`. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- The condition of the second `scf.if` (copy the accumulator out): `kj = 3`. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
/-- Where `kj ≠ 3` the output window is idle and its block is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where `kj = 3` it is live. -/
theorem liveAt4_2 : ∀ t : Fin cfg4.N, cond4_1 (grid4.coords t) → cfg4.idle 2 (grid4.coords t) = false := by decide +kernel

set_option maxHeartbeats 1000000 in
theorem sound_kernel4_A (c : Dev nD) (E : Set ℕ) (i : grid4.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (arg5 : Memref sig .tc .vmem S1024x1024 .f32) (harg5 : arg5.IsWhole)
    (hc0 : cond4_0 i) (hc1 : ¬cond4_1 i)
    (x0 x1 : Vec F S1024x1024 .bf16) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
              ∗ owns (c : Thread nD τ) arg5 fullShare (step4 zero4 x0 x1)) -∗ K ⟨⟩))
      ⊢ wp frame (wpE (defs₀ (F := F)) Variants.none c none) E (cc4__output_kernel i arg2 harg2 arg3 harg3 arg4 harg4 arg5 harg5) K := by
  simp only [cc4__output_kernel_eq_skeleton]; unfold cc4__output_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover4 _ _)]
  sl_unfold_run_names
  unfold step4 zero4
  simp only [View.readAt_eq_ld, hf0, hf1, canon_cons_r4, View.ld_unit_zero (S := S1024x1024) hz4, View.readCov_unit_zero (S := S1024x1024) _ hz4]

set_option maxHeartbeats 1000000 in
theorem sound_kernel4_B (c : Dev nD) (E : Set ℕ) (i : grid4.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (arg5 : Memref sig .tc .vmem S1024x1024 .f32) (harg5 : arg5.IsWhole)
    (hc0 : ¬cond4_0 i) (hc1 : ¬cond4_1 i)
    (x0 x1 : Vec F S1024x1024 .bf16) (xs : Vec F S1024x1024 .f32) (K : PUnit → sProp 𝕄) :
    iprop(owns (c : Thread nD τ) arg2 fullShare x0 ∗ owns (c : Thread nD τ) arg3 fullShare x1
        ∗ owns (c : Thread nD τ) arg5 fullShare xs
        ∗ (iprop(owns (c : Thread nD τ) arg2 fullShare x0 ∗ owns (c : Thread nD τ) arg3 fullShare x1
              ∗ owns (c : Thread nD τ) arg5 fullShare (step4 xs x0 x1)) -∗ K ⟨⟩))
      ⊢ wp frame (wpE (defs₀ (F := F)) Variants.none c none) E (cc4__output_kernel i arg2 harg2 arg3 harg3 arg4 harg4 arg5 harg5) K := by
  simp only [cc4__output_kernel_eq_skeleton]; unfold cc4__output_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover4 _ _)]
  unfold step4
  simp only [View.readAt_eq_ld, hf0, hf1, canon_cons_r4, View.ld_unit_zero (S := S1024x1024) hz4, View.readCov_unit_zero (S := S1024x1024) _ hz4, hfs]

set_option maxHeartbeats 1000000 in
theorem sound_kernel4_C (c : Dev nD) (E : Set ℕ) (i : grid4.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (arg5 : Memref sig .tc .vmem S1024x1024 .f32) (harg5 : arg5.IsWhole)
    (hc0 : ¬cond4_0 i) (hc1 : cond4_1 i)
    (x0 x1 : Vec F S1024x1024 .bf16) (xs : Vec F S1024x1024 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
              ∗ owns (c : Thread nD τ) arg4 fullShare (step4 xs x0 x1)
              ∗ owns (c : Thread nD τ) arg5 fullShare (step4 xs x0 x1)) -∗ K ⟨⟩))
      ⊢ wp frame (wpE (defs₀ (F := F)) Variants.none c none) E (cc4__output_kernel i arg2 harg2 arg3 harg3 arg4 harg4 arg5 harg5) K := by
  simp only [cc4__output_kernel_eq_skeleton]; unfold cc4__output_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    rw [View.read_writes_eq_canon _ _ _ (cover4 _ _)]
    sl_unfold_run_names
    unfold step4
    simp only [View.readAt_eq_ld, hf0, hf1, canon_cons_r4, View.ld_unit_zero (S := S1024x1024) hz4, View.readCov_unit_zero (S := S1024x1024) _ hz4, hfs]
  iexists _; isplitr
  swap; · iexact HS
  ipureintro
  sl_unfold_run_names
  rw [View.read_writes_eq_canon _ _ _ (cover4 _ _)]
  unfold step4
  simp only [View.readAt_eq_ld, hf0, hf1, canon_cons_r4, View.ld_unit_zero (S := S1024x1024) hz4, View.readCov_unit_zero (S := S1024x1024) _ hz4, hfs]

/-! ## The accumulator, point by point -/

/-- The scratch buffer (the accumulator) as the pipeline passes it to the body. -/
abbrev scM4 : Memref sig .tc .vmem S1024x1024 .f32 := Memref.whole cc4_scratch0

/-- What the accumulator holds after the body at position `n`: at `kj = 0` one step from zero, else one step from what
    the point before left. -/
def acc4 (c : Dev nD) : (n : ℕ) → n < cfg4.N → Vec F S1024x1024 .f32
  | 0, hn => step4 zero4 (iblk4 V c 0 ⟨0, hn⟩) (iblk4 V c 1 ⟨0, hn⟩)
  | n + 1, hn =>
    if (n + 1) % 4 = 0 then step4 zero4 (iblk4 V c 0 ⟨n + 1, hn⟩) (iblk4 V c 1 ⟨n + 1, hn⟩)
    else step4 (acc4 c n (Nat.lt_of_succ_lt hn)) (iblk4 V c 0 ⟨n + 1, hn⟩) (iblk4 V c 1 ⟨n + 1, hn⟩)

/-- At a point with `kj = 0`: one step from zero. -/
theorem acc4_A (c : Dev nD) (t : Fin cfg4.N) (h0 : t.val % 4 = 0) :
    acc4 V c t.val t.isLt = step4 zero4 (iblk4 V c 0 t) (iblk4 V c 1 t) := by
  obtain ⟨n, hn⟩ := t
  cases n with
  | zero => rfl
  | succ n => exact if_pos h0

/-- At a point with `kj ≠ 0`: one step from what the point before left. -/
theorem acc4_B (c : Dev nD) (t : Fin cfg4.N) (h0 : ¬t.val % 4 = 0) :
    acc4 V c t.val t.isLt
      = step4 (acc4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-- The scoped buffers other than the accumulator, and the generator register: carried unopened. -/
abbrev rest4 (c : Dev nD) : sProp 𝕄 :=
  iprop(Pipeline.scopedRestBut (Ix := Unit) (Name := ℕ) (U := UR sig nD τ) (Lvl := ℕ) (Val := Elt F) spec4 c [cc4_scratch0] ∗ (∃ r, prngReg c r))

/-- The region invariant before position `n`: the accumulator at anything before the first point, afterwards at what
    the point before left. -/
def Phi4 (c : Dev nD) : (n : ℕ) → n ≤ cfg4.N → sProp 𝕄
  | 0, _ => iprop((∃ d, owns (c : Thread nD τ) scM4 fullShare d) ∗ rest4 (F := F) c)
  | n + 1, hn => iprop(owns (c : Thread nD τ) scM4 fullShare (acc4 V c n hn) ∗ rest4 (F := F) c)

theorem Phi4_succ (c : Dev nD) (n : ℕ) (hn : n < cfg4.N) :
    Phi4 V c (n + 1) hn = iprop(owns (c : Thread nD τ) scM4 fullShare (acc4 V c n hn) ∗ rest4 (F := F) c) := rfl

theorem Phi4_pos (c : Dev nD) (n : ℕ) (h : n ≤ cfg4.N) (hz : n ≠ 0) :
    Phi4 V c n h = iprop(owns (c : Thread nD τ) scM4 fullShare (acc4 V c (n - 1) (by omega)) ∗ rest4 (F := F) c) := by
  cases n with
  | zero => exact absurd rfl hz
  | succ n => rfl

/-- At any position the invariant holds the accumulator at some contents. -/
theorem Phi4_any (c : Dev nD) (n : ℕ) (h : n ≤ cfg4.N) :
    Phi4 V c n h ⊢ iprop((∃ d, owns (c : Thread nD τ) scM4 fullShare d) ∗ rest4 (F := F) c) := by
  cases n with
  | zero => exact Idealize.SL.BI.Entails.refl _
  | succ n =>
    rw [Phi4_succ]
    iintro ⟨HS, HR⟩
    isplitl [HS]; · iexists _; iexact HS
    iexact HR

/-! ## The pipeline's proof data -/

/-- The proof data of the output kernel's pipeline on core `c`: the arrays as the region finds them; after the body
    each input's buffer at its block and the output's at the accumulator; the invariant `Phi4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point, by the value of `kj`: the invariant hands the body the accumulator (at anything when
    `kj = 0`, else at what the point before left) and takes it back one step further; where `kj ≠ 3` the output's
    buffer is handed back as found, where `kj = 3` it holds the accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [Phi4_castSucc V c t]
  have hN : t.val < 16 := lt_of_lt_of_eq t.isLt (show cfg4.N = 16 from N_4)
  by_cases h0 : t.val % 4 = 0
  · have h1 : ¬t.val % 4 = 3 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [acc4_A V c t h0]
    iintro ⟨HΦ, Ho, ⟨%d0, H0⟩, ⟨%d1, H1⟩, H2⟩
    ihave HΦ' := (Phi4_any V c t.val _) $$ HΦ
    icases HΦ' with ⟨HS, HR⟩
    iapply (sound_kernel4_A c Set.univ (grid4.coords t) _ _ _ _ _ _ _ _ hc0 hc1 (iblk4 V c 0 t) (iblk4 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    iexact H2
  · have hz : t.val ≠ 0 := fun h => h0 (by rw [h])
    have hc0 : ¬cond4_0 (grid4.coords t) := fun h => h0 ((hcond4_0 t).mp h)
    rw [Phi4_pos V c _ _ hz, acc4_B V c t h0]
    by_cases h1 : t.val % 4 = 3
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2, acc4_B V c t h0]
      iintro ⟨⟨HS, HR⟩, Ho, ⟨%d0, H0⟩, ⟨%d1, H1⟩, ⟨%d2, H2⟩⟩
      iapply (sound_kernel4_C c Set.univ (grid4.coords t) _ _ _ _ _ _ _ _ hc0 hc1 (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      iintro ⟨⟨HS, HR⟩, Ho, ⟨%d0, H0⟩, ⟨%d1, H1⟩, H2⟩
      iapply (sound_kernel4_B c Set.univ (grid4.coords t) _ _ _ _ _ _ _ _ hc0 hc1 (iblk4 V c 0 t) (iblk4 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the region is entered with — the generator register and every scoped buffer outside the staging buffers at
    anything — is the invariant before the first point: the accumulator is one of those buffers. -/
theorem hin4 (c : Dev nD) : iprop((∃ r, prngReg c r) ∗ Pipeline.scopedRest (Ix := Unit) (Name := ℕ) (U := UR sig nD τ) (Lvl := ℕ) (Val := Elt F) spec4 c) ⊢ ((dat4 V c).Φ 0 : sProp 𝕄) := by
  rw [show (dat4 V c).Φ 0 = Phi4 V c 0 (Nat.zero_le _) from rfl, show Phi4 V c 0 (Nat.zero_le _) = iprop((∃ d, owns (c : Thread nD τ) scM4 fullShare d) ∗ rest4 (F := F) c) from rfl]
  rw [scopedRest4_split]
  simp only [scM4, owns_whole]
  iintro ⟨Hg, HS, HR⟩
  isplitl [HS]; · iexact HS
  isplitl [HR]; · iexact HR
  iexact Hg

/-- After the last point the invariant gives it back: the accumulator's contents are forgotten. -/
theorem hout4 (c : Dev nD) : ((dat4 V c).Φ (Fin.last cfg4.N) : sProp 𝕄) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl]
  refine (Phi4_any V c _ _).trans ?_
  rw [scopedRest4_split]
  simp only [scM4, owns_whole]
  iintro ⟨HS, HR, Hg⟩
  isplitl [Hg]; · iexact Hg
  isplitl [HS]; · iexact HS
  iexact HR

end Cert.Kernel.Hand
end
-- ==== Proof.KbRegion2.lean ====
import proofs.«123334_j33835752358180_2_alg».proof.Proof.Gen.Kernel.Launch
import proofs.«123334_j33835752358180_2_alg».proof.Proof.Gen.Kernel.Skeleton
import proofs.«123334_j33835752358180_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the score kernel (grid 4×4; point t = (qi, ki) = (t / 4, t % 4)), at the entry contents V -/

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the Q block) holds its block at every point, fetched there (ki = 0) or not (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the K block) holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024×1024 block. -/
abbrev r2_m : Rect S1024x1024 := Rect.unit (s := S1024x1024) ![0, 0] S1024x1024.size inb_S1024x1024_S1024x1024_0_0
/-- The whole 1024×1 column of row sums. -/
abbrev r2_v : Rect S1024x1 := Rect.unit (s := S1024x1) ![0, 0] S1024x1.size inb_S1024x1_S1024x1_0_0

/-! ## The body's branch condition -/

/-- The condition of the body's conditional: the second grid coordinate ki is 0. -/
abbrev cond2 (i : grid2.Coords) : Prop := (Scalar.cmpi .ne (Scalar.extui (Scalar.cmpi .eq (BitVec.ofNat 32 (i 1).val) 0#32)) 0#32) = 1#1
/-- It holds exactly at the points with t % 4 = 0 — decided over the 16 points of the grid. -/
theorem hcond2 : ∀ t : Fin cfg2.N, cond2 (grid2.coords t) ↔ t.val % 4 = 0 :=
  (by decide +kernel : ∀ t : Fin grid2.N, cond2 (grid2.coords t) ↔ t.val % 4 = 0)

/-! ## What the body leaves in each output window's buffer -/

/-- Window 2 (the scores e) after the body: its one store of the whole block, exp(Q Kᵀ · 2⁻¹⁰) rounded to bf16. -/
def out2_2 (x0 x1 : Vec F S1024x1024 .bf16) : Vec F S1024x1024 .bf16 :=
  View.canon [⟨r2_m, k2_pay1 (View.ld x0 r2_m) (View.ld x1 r2_m)⟩]

/-- The zeroed column of row sums (what the conditional's store leaves when ki = 0). -/
def zero2_3 : Vec F S1024x1 .f32 :=
  View.canon [⟨r2_v, k2_pay2 (F := F)⟩]

/-- Window 3 (the row sums) after the body, from the running contents prev: prev plus this block's row sums. -/
def out2_3 (x0 x1 : Vec F S1024x1024 .bf16) (prev : Vec F S1024x1 .f32) : Vec F S1024x1 .f32 :=
  View.canon [⟨r2_v, k2_pay3 (View.ld x0 r2_m) (View.ld x1 r2_m) (View.ld prev r2_v)⟩]

theorem cover2_m (p0 : Vec F S1024x1024 .bf16) (y : S1024x1024.Idx) :
    ∃ pc ∈ ([⟨r2_m, p0⟩] : List (View.Piece (Elt F) S1024x1024 .bf16)), y ∈ pc.1.set :=
  View.cover_of_tiled [⟨r2_m, p0⟩] S1024x1024.size (by rfl) y

theorem cover2_v (p0 : Vec F S1024x1 .f32) (y : S1024x1.Idx) :
    ∃ pc ∈ ([⟨r2_v, p0⟩] : List (View.Piece (Elt F) S1024x1 .f32)), y ∈ pc.1.set :=
  View.cover_of_tiled [⟨r2_v, p0⟩] S1024x1.size (by rfl) y

/-! ## The body's triple, case by case -/

set_option maxHeartbeats 1000000 in
/-- Case ki = 0. On whole staging memrefs, the inputs' at contents x0 (Q block) and x1 (K block), the outputs' at anything,
    the body runs to the continuation holding the inputs' as they were, the score block at out2_2 and the row sums at
    out2_3 over the zeroed column: the conditional zeroes the column, which is then read back and added to. -/
theorem sound_kernel2_A (c : Dev nD) (E : Set ℕ) (i : grid2.Coords) (hc : cond2 i)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1 .f32) (harg5 : arg5.IsWhole)
    (x0 x1 : Vec F S1024x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out2_2 x0 x1) ∗ owns (c : Thread nD τ) arg5 fullShare (out2_3 x0 x1 zero2_3)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_m _)
  iexists _; isplitr
  swap; · iexact H3
  ipureintro
  have hz : (![0, 0] : Fin S1024x1.rank → Nat) = fun _ => 0 := funext fun a => by fin_cases a <;> rfl
  rw [View.read_writes_eq_canon _ _ _ (fun y => ⟨_, List.mem_cons_self, View.mem_set_unit_zero hz inb_S1024x1_S1024x1_0_0 y⟩),
    View.canon_cons_unit_zero hz inb_S1024x1_S1024x1_0_0, View.readCov_eq_canon_ld _ _ _ (cover2_v _)]
  unfold out2_3 zero2_3
  refine Eq.trans ?_ (View.canon_unit_zero (Val := Elt F) (S := S1024x1) hz inb_S1024x1_S1024x1_0_0 _).symm
  rfl

set_option maxHeartbeats 1000000 in
/-- Case ki ≠ 0. The same, the row sums' memref at its running contents xo, which the body reads and adds to. -/
theorem sound_kernel2_B (c : Dev nD) (E : Set ℕ) (i : grid2.Coords) (hc : ¬cond2 i)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1 .f32) (harg5 : arg5.IsWhole)
    (x0 x1 : Vec F S1024x1024 .bf16) (xo : Vec F S1024x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (out2_2 x0 x1) ∗ owns (c : Thread nD τ) arg5 fullShare (out2_3 x0 x1 xo)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_m _)
  iexists _; isplitr
  swap; · iexact H3
  ipureintro
  exact View.read_writes_eq_canon _ _ _ (cover2_v _)

/-! ## What the row sums' buffer holds after each point -/

/-- The accumulation. After the body at position n the row sums' staging buffer holds this block's row sums added to:
    the zeroed column when ki = n % 4 = 0, what the point before left otherwise (the buffer is not written back between). -/
def acc2 (c : Dev nD) : (n : ℕ) → n < cfg2.N → Vec F S1024x1 .f32
  | 0, hn => out2_3 (iblk2 V c 0 ⟨0, hn⟩) (iblk2 V c 1 ⟨0, hn⟩) zero2_3
  | n + 1, hn => out2_3 (iblk2 V c 0 ⟨n + 1, hn⟩) (iblk2 V c 1 ⟨n + 1, hn⟩)
      (if (n + 1) % 4 = 0 then zero2_3 else acc2 c n (Nat.lt_of_succ_lt hn))

/-- At a point with ki = 0: over the zeroed column. -/
theorem acc2_A (c : Dev nD) (t : Fin cfg2.N) (h0 : t.val % 4 = 0) :
    acc2 V c t.val t.isLt = out2_3 (iblk2 V c 0 t) (iblk2 V c 1 t) zero2_3 := by
  obtain ⟨n, hn⟩ := t
  cases n with
  | zero => rfl
  | succ n => show out2_3 _ _ (if (n + 1) % 4 = 0 then _ else _) = _; rw [if_pos h0]

/-- At a point with ki ≠ 0: over what the point before left. -/
theorem acc2_B (c : Dev nD) (t : Fin cfg2.N) (h0 : ¬t.val % 4 = 0) :
    acc2 V c t.val t.isLt = out2_3 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h0
  | succ n => show out2_3 _ _ (if (n + 1) % 4 = 0 then _ else _) = _; rw [if_neg h0]; rfl

/-! ## The pipeline's proof data -/

/-- The proof data of this pipeline on core c: the arrays as the region finds them; after the body at point t each
    input's buffer at its block, the scores' at out2_2 of the blocks, the row sums' at acc2; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a point with ki ≠ 0 the row sums' staging buffer holds what the body left at the point before: the point is not
    the first, and the buffer was not written back between (it is only after a point with ki = 3). -/
theorem before2_3_B (c : Dev nD) (t : Fin cfg2.N) (h0 : ¬t.val % 4 = 0) (d) :
    (dat2 V c).before 3 t d = acc2 V c (t.val - 1) (Nat.lt_of_le_of_lt (Nat.sub_le _ _) t.isLt) := by
  have hN : t.val < 16 := lt_of_lt_of_eq t.isLt (show cfg2.N = 16 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 800000 in
/-- The body at any point: the inputs' memrefs hold their blocks; the point is in one of the two cases (ki = 0 or not), and
    when ki ≠ 0 the row sums' memref holds what the point before left; so the case's run applies. The invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  by_cases h0 : t.val % 4 = 0
  · rw [acc2_A V c t h0]
    iintro ⟨HΦ, Ho, ⟨%d0, H0⟩, ⟨%d1, H1⟩, ⟨%d2, H2⟩, ⟨%d3, H3⟩⟩
    iapply (sound_kernel2_A c Set.univ (grid2.coords t) ((hcond2 t).mpr h0) _ _ _ _ _ _ _ _ (iblk2 V c 0 t) (iblk2 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc2_B V c t h0]
    simp only [before2_3_B V c t h0]
    iintro ⟨HΦ, Ho, ⟨%d0, H0⟩, ⟨%d1, H1⟩, ⟨%d2, H2⟩, ⟨%d3, H3⟩⟩
    iapply (sound_kernel2_B c Set.univ (grid2.coords t) (fun h => h0 ((hcond2 t).mp h)) _ _ _ _ _ _ _ _ (iblk2 V c 0 t) (iblk2 V c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
end
-- ==== Proof.KbRun.lean ====
/-
  The run of the whole program: its eight items in order — a reshape of a bias, the Q projection, a reshape, the K projection,
  the score kernel, a reshape, the scaled V projection, the output kernel — each entered with every unscoped buffer at
  known contents and left with them at known contents: a host reshape applies its operation; a kernel region leaves
  each of its windows' arrays at what its write-backs leave and every other buffer as it found it.  Every weakly fair
  execution terminates with every unscoped buffer at the contents the last item leaves.
-/
import proofs.«123334_j33835752358180_2_alg».proof.Proof.Gen.Kernel.Launch
import proofs.«123334_j33835752358180_2_alg».proof.Proof.Gen.Kernel.Skeleton
import proofs.«123334_j33835752358180_2_alg».proof.Proof.Gen.Kernel.Points
import proofs.«123334_j33835752358180_2_alg».proof.Proof.KbRegion0
import proofs.«123334_j33835752358180_2_alg».proof.Proof.KbRegion1
import proofs.«123334_j33835752358180_2_alg».proof.Proof.KbRegion3
import proofs.«123334_j33835752358180_2_alg».proof.Proof.KbRegion4
import proofs.«123334_j33835752358180_2_alg».proof.Proof.KbRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its windows' arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1: its windows' arrays at what the write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After region 2: its windows' arrays at what the write-backs leave, every other buffer as the region found it. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After region 3: its windows' arrays at what the write-backs leave, every other buffer as the region found it. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After region 4: its windows' arrays at what the write-backs leave, every other buffer as the region found it. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-! ## The proof data of the five pipelines and what rides beside the buffers -/

abbrev adm : (p : Fin 5) → (pcfgs (F := F) p).Adm := fun p => (cfgs p).toPCfg_adm
/-- Each pipeline's proof data at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment: entered with every unscoped buffer at `W1`, left with them at `W2`: its arrays are split out of
    the unscoped buffers on entry and put back at what the write-backs leave on exit; the generator register goes into the
    body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`: its arrays are split out of
    the unscoped buffers on entry and put back at what the write-backs leave on exit; the generator register goes into the
    body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`: its arrays are split out of
    the unscoped buffers on entry and put back at what the write-backs leave on exit; the generator register goes into the
    body's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W6`, left with them at `W7`: its arrays are split out of
    the unscoped buffers on entry and put back at what the write-backs leave on exit; the generator register goes into the
    body's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W7`, left with them at `W8`: its arrays are split out of
    the unscoped buffers on entry and put back at what the write-backs leave on exit; the generator register goes into the
    body's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V7 m ρ) c).Φ 0 from rfl]
    iintro ⟨Hp, -, Hr⟩
    iapply (hin4 (V7 m ρ) c)
    isplitl [Hp]; · iexact Hp
    iexact Hr
  hout c := by
    rw [Pipeline.ownSems0_none, show (pdats m ρ 4 c).Φ (Fin.last _) = (dat4 (V7 m ρ) c).Φ (Fin.last cfg4.N) from rfl]
    iintro HΦ
    ihave H := (hout4 (V7 m ρ) c) $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting, with every unscoped buffer of
    every core at the contents the last item leaves (`W8`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.KbFrame.lean ====
/-
  What the run leaves, read off: no item writes an argument array — a host reshape writes only its own result, a kernel
  region only its output windows' arrays — so each argument ends as launched; and the result array is what the last
  region's write-backs leave.
-/
import proofs.«123334_j33835752358180_2_alg».proof.Proof.Gen.Kernel.Launch
import proofs.«123334_j33835752358180_2_alg».proof.Proof.Gen.Kernel.Skeleton
import proofs.«123334_j33835752358180_2_alg».proof.Proof.Gen.Kernel.Points
import proofs.«123334_j33835752358180_2_alg».proof.Proof.KbRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [hostOps3, List.Forall, StableHlo.reshape_writes, Finset.mem_singleton]
          exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [hostOps3, List.Forall, StableHlo.reshape_writes, Finset.mem_singleton]
          exact StableHlo.devRef_ne_of_ne (by decide)))
    _ = W4 m ρ c (Proc.devRef .tc main_arg1) := W5_of_ne m ρ c main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := (W7_arr m ρ c 0).trans (((dat3 (V6 m ρ) c).arrAt_in 0 rfl _).trans (A_eq3 (V6 m ρ) c 0))
    _ = W5 m ρ c (Proc.devRef .tc main_arg2) := StableHlo.after_of_forall_not_mem (b := Proc.devRef .tc main_arg2) _ _ (List.forall_iff_forall_mem.mp (by
          simp only [hostOps3, List.Forall, StableHlo.reshape_writes, Finset.mem_singleton]
          exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by
          simp only [hostOps3, List.Forall, StableHlo.reshape_writes, Finset.mem_singleton]
          exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps3, List.Forall, StableHlo.reshape_writes, Finset.mem_singleton]
          exact StableHlo.devRef_ne_of_ne (by decide)))
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [hostOps3, List.Forall, StableHlo.reshape_writes, Finset.mem_singleton]
          exact StableHlo.devRef_ne_of_ne (by decide)))
    _ = W4 m ρ c (Proc.devRef .tc main_arg5) := W5_of_ne m ρ c main_arg5 (by decide)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.Forall, StableHlo.reshape_writes, Finset.mem_singleton]
          exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          exact StableHlo.devRef_ne_of_ne (by decide)))
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := (W7_arr m ρ c 1).trans (((dat3 (V6 m ρ) c).arrAt_in 1 rfl _).trans (A_eq3 (V6 m ρ) c 1))
    _ = W5 m ρ c (Proc.devRef .tc main_arg7) := StableHlo.after_of_forall_not_mem (b := Proc.devRef .tc main_arg7) _ _ (List.forall_iff_forall_mem.mp (by
          simp only [hostOps3, List.Forall, StableHlo.reshape_writes, Finset.mem_singleton]
          exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.reshape_writes, Finset.mem_singleton]
          exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          exact StableHlo.devRef_ne_of_ne (by decide)))
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.Forall, StableHlo.reshape_writes, Finset.mem_singleton]
          exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.reshape_writes, Finset.mem_singleton]
          exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.reshape_writes, Finset.mem_singleton]
          exact StableHlo.devRef_ne_of_ne (by decide)))
    _ = m ((c : Thread nD τ).loc main_arg8) := rfl

/-- The frame: every weakly fair execution terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩) (run_main m ρ)

/-- The same run with the result array named: what region 4's write-backs leave in its output window's array. -/
theorem run_value : θ_run defs (onTc (τ := τ) (main (F := F))) ⟨m, fun _ => 0, ρ⟩ (fun r => ∀ c : Dev nD,
      r.2.mem ((c.tc : Thread nD τ).loc main_v7) = (dat4 (V7 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c _ (mem_uc main_v7 (by decide))).trans (W8_arr m ρ c 2),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩) (run_main m ρ)

end Cert.Kernel.Hand

end
-- ==== Proof.KiRegion0.lean ====
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: the projection kernel `cc0__linear_kernel`, at the buffer contents `V` found when the region is entered.
One control case: every input window's block is loaded whole, one payload is computed, and the output
window's block is stored whole. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched
    there (when it was not, the block index has not moved since the point before), for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched
    there (when it was not, the block index has not moved since the point before), for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched
    there (when it was not, the block index has not moved since the point before), for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_S1024x1024 : Rect S1024x1024 := Rect.unit (s := S1024x1024) ![0, 0] S1024x1024.size inb_S1024x1024_S1024x1024_0_0
abbrev r0_S1x1024 : Rect S1x1024 := Rect.unit (s := S1x1024) ![0, 0] S1x1024.size inb_S1x1024_S1x1024_0_0

/-! ## What the body leaves in the output window's buffer -/

/-- Window 3's staging buffer after the body, from the input windows' blocks: its one store, of the payload
    computed from the whole-buffer loads. -/
def out0_3 (x0 : Vec F S1024x1024 .f32) (x1 : Vec F S1024x1024 .f32) (x2 : Vec F S1x1024 .f32) : Vec F S1024x1024 .bf16 :=
  View.canon [⟨r0_S1024x1024, k0_pay1 (View.ld x0 r0_S1024x1024) (View.ld x1 r0_S1024x1024) (View.ld x2 r0_S1x1024)⟩]

/-- The one store is of the whole buffer, so it covers it. -/
theorem cover0_3 (p0 : Vec F S1024x1024 .bf16) (y : S1024x1024.Idx) :
    ∃ pc ∈ ([⟨r0_S1024x1024, p0⟩] : List (View.Piece (Elt F) S1024x1024 .bf16)), y ∈ pc.1.set :=
  View.cover_of_tiled [⟨r0_S1024x1024, p0⟩] S1024x1024.size (by rfl) y

/-! ## The body's triple -/

set_option maxHeartbeats 1000000 in
/-- The kernel body on whole staging memrefs, the inputs' at read contents `xW` and the output's at anything, runs
    to the continuation holding the inputs' as they were and the output's at `out0_3` of the inputs'. -/
theorem sound_kernel0 (c : Dev nD) (E : Set ℕ) (i : grid0.Coords) (arg0 : Memref sig .tc .vmem S1024x1024 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant that of
    a body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the projection kernel `cc1__linear_kernel`, at the buffer contents `V` found when the region is entered.
One control case: every input window's block is loaded whole, one payload is computed, and the output
window's block is stored whole. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched
    there (when it was not, the block index has not moved since the point before), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched
    there (when it was not, the block index has not moved since the point before), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched
    there (when it was not, the block index has not moved since the point before), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_S1024x1024 : Rect S1024x1024 := Rect.unit (s := S1024x1024) ![0, 0] S1024x1024.size inb_S1024x1024_S1024x1024_0_0
abbrev r1_S1x1024 : Rect S1x1024 := Rect.unit (s := S1x1024) ![0, 0] S1x1024.size inb_S1x1024_S1x1024_0_0

/-! ## What the body leaves in the output window's buffer -/

/-- Window 3's staging buffer after the body, from the input windows' blocks: its one store, of the payload
    computed from the whole-buffer loads. -/
def out1_3 (x0 : Vec F S1024x1024 .f32) (x1 : Vec F S1024x1024 .f32) (x2 : Vec F S1x1024 .f32) : Vec F S1024x1024 .bf16 :=
  View.canon [⟨r1_S1024x1024, k1_pay1 (View.ld x0 r1_S1024x1024) (View.ld x1 r1_S1024x1024) (View.ld x2 r1_S1x1024)⟩]

/-- The one store is of the whole buffer, so it covers it. -/
theorem cover1_3 (p0 : Vec F S1024x1024 .bf16) (y : S1024x1024.Idx) :
    ∃ pc ∈ ([⟨r1_S1024x1024, p0⟩] : List (View.Piece (Elt F) S1024x1024 .bf16)), y ∈ pc.1.set :=
  View.cover_of_tiled [⟨r1_S1024x1024, p0⟩] S1024x1024.size (by rfl) y

/-! ## The body's triple -/

set_option maxHeartbeats 1000000 in
/-- The kernel body on whole staging memrefs, the inputs' at read contents `xW` and the output's at anything, runs
    to the continuation holding the inputs' as they were and the output's at `out1_3` of the inputs'. -/
theorem sound_kernel1 (c : Dev nD) (E : Set ℕ) (i : grid1.Coords) (arg0 : Memref sig .tc .vmem S1024x1024 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant that of
    a body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRegion3.lean ====
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 3: the projection kernel `cc3__linear_scaled_kernel`, at the buffer contents `V` found when the region is entered.
One control case: every input window's block is loaded whole, one payload is computed, and the output
window's block is stored whole. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched
    there (when it was not, the block index has not moved since the point before), for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched
    there (when it was not, the block index has not moved since the point before), for any proof data whose
    array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched
    there (when it was not, the block index has not moved since the point before), for any proof data whose
    array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not it was fetched
    there (when it was not, the block index has not moved since the point before), for any proof data whose
    array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each the whole of its buffer -/

abbrev r3_S1024x1024 : Rect S1024x1024 := Rect.unit (s := S1024x1024) ![0, 0] S1024x1024.size inb_S1024x1024_S1024x1024_0_0
abbrev r3_S1x1024 : Rect S1x1024 := Rect.unit (s := S1x1024) ![0, 0] S1x1024.size inb_S1x1024_S1x1024_0_0
abbrev r3_S1024x1 : Rect S1024x1 := Rect.unit (s := S1024x1) ![0, 0] S1024x1.size inb_S1024x1_S1024x1_0_0

/-! ## What the body leaves in the output window's buffer -/

/-- Window 4's staging buffer after the body, from the input windows' blocks: its one store, of the payload
    computed from the whole-buffer loads. -/
def out3_4 (x0 : Vec F S1024x1024 .f32) (x1 : Vec F S1024x1024 .f32) (x2 : Vec F S1x1024 .f32) (x3 : Vec F S1024x1 .f32) : Vec F S1024x1024 .bf16 :=
  View.canon [⟨r3_S1024x1024, k3_pay1 (View.ld x0 r3_S1024x1024) (View.ld x1 r3_S1024x1024) (View.ld x2 r3_S1x1024) (View.ld x3 r3_S1024x1)⟩]

/-- The one store is of the whole buffer, so it covers it. -/
theorem cover3_4 (p0 : Vec F S1024x1024 .bf16) (y : S1024x1024.Idx) :
    ∃ pc ∈ ([⟨r3_S1024x1024, p0⟩] : List (View.Piece (Elt F) S1024x1024 .bf16)), y ∈ pc.1.set :=
  View.cover_of_tiled [⟨r3_S1024x1024, p0⟩] S1024x1024.size (by rfl) y

/-! ## The body's triple -/

set_option maxHeartbeats 1000000 in
/-- The kernel body on whole staging memrefs, the inputs' at read contents `xW` and the output's at anything, runs
    to the continuation holding the inputs' as they were and the output's at `out3_4` of the inputs'. -/
theorem sound_kernel3 (c : Dev nD) (E : Set ℕ) (i : grid3.Coords) (arg0 : Memref sig .tc .vmem S1024x1024 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1024x1 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (x3 : Vec F S1024x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__linear_scaled_kernel i arg0 harg0 arg1 harg1 arg2 harg2 arg3 harg3 arg4 harg4) K := by
  simp only [cc3__linear_scaled_kernel_eq_skeleton]; unfold cc3__linear_scaled_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them; after the body at point `t`
    each input's buffer at its block and the output's at `out3_4` of the input blocks; the invariant that of
    a body touching nothing but its windows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiRegion4.lean ====
/-
  Region 4 of the attention head: the output kernel e·V', accumulated over the grid's second axis in a scratch
  buffer. The proof data of its pipeline, the body's triple in each of the three control cases, and the body
  obligation; generic in the float interpretation.
-/
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # Region 4: the output kernel (grid 4 × 4), at the entry contents `V`

Point `t = (qi, kj)`. Windows 0 and 1 are the inputs' blocks `(qi, kj)` and `(kj, 0)`; window 2 is the output block
`(qi, 0)`, stored only at `kj = 3`. The accumulator lives in a scratch buffer carried from point to point: zeroed at
`kj = 0`, increased by the product of the two input blocks at every point, copied to the output at `kj = 3`. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses and what its stores leave -/

/-- Every load and store of the body goes through the whole 1024 × 1024 rectangle at offset zero. -/
abbrev r4 : Rect S1024x1024 := Rect.unit (s := S1024x1024) ![0, 0] S1024x1024.size inb_S1024x1024_S1024x1024_0_0

theorem hz4 : (![0, 0] : Fin S1024x1024.rank → ℕ) = fun _ => 0 := by
  funext a; fin_cases a <;> rfl

/-- The accumulator after the zeroing store: the zero block. -/
def zero4 : Vec F S1024x1024 .f32 := k4_pay1 (F := F)

/-- The accumulator after one accumulation step: the old accumulator `xs` plus the product of the blocks `x0`, `x1`. -/
def step4 (xs : Vec F S1024x1024 .f32) (x0 x1 : Vec F S1024x1024 .bf16) : Vec F S1024x1024 .f32 :=
  k4_pay2 xs x0 x1

/-- A list of stores whose last one goes through the whole rectangle covers the buffer. -/
theorem cover4 (p : Vec F S1024x1024 .f32) (L : List (View.Piece (Elt F) S1024x1024 .f32)) (y : S1024x1024.Idx) :
    ∃ pc ∈ ((⟨r4, p⟩ :: L : List (View.Piece (Elt F) S1024x1024 .f32))), y ∈ pc.1.set :=
  ⟨_, List.mem_cons_self, View.mem_set_unit_zero (S := S1024x1024) hz4 inb_S1024x1024_S1024x1024_0_0 y⟩

/-- A store through the whole rectangle, last, leaves its payload. -/
theorem canon_cons_r4 (w : Vec F S1024x1024 .f32) (L : List (View.Piece (Elt F) S1024x1024 .f32)) :
    View.canon ((⟨r4, w⟩ : View.Piece (Elt F) S1024x1024 .f32) :: L) = w :=
  View.canon_cons_unit_zero (S := S1024x1024) hz4 inb_S1024x1024_S1024x1024_0_0 w L

/-! ## The body's branch conditions -/

/-- The condition of the first `scf.if` (zero the accumulator): `kj = 0`. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- The condition of the second `scf.if` (copy the accumulator out): `kj = 3`. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
/-- Where `kj ≠ 3` the output window is idle and its block is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where `kj = 3` it is live. -/
theorem liveAt4_2 : ∀ t : Fin cfg4.N, cond4_1 (grid4.coords t) → cfg4.idle 2 (grid4.coords t) = false := by decide +kernel

set_option maxHeartbeats 1000000 in
theorem sound_kernel4_A (c : Dev nD) (E : Set ℕ) (i : grid4.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (arg5 : Memref sig .tc .vmem S1024x1024 .f32) (harg5 : arg5.IsWhole)
    (hc0 : cond4_0 i) (hc1 : ¬cond4_1 i)
    (x0 x1 : Vec F S1024x1024 .bf16) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
              ∗ owns (c : Thread nD τ) arg5 fullShare (step4 zero4 x0 x1)) -∗ K ⟨⟩))
      ⊢ wp frame (wpE (defs₀ (F := F)) Variants.none c none) E (cc4__output_kernel i arg2 harg2 arg3 harg3 arg4 harg4 arg5 harg5) K := by
  simp only [cc4__output_kernel_eq_skeleton]; unfold cc4__output_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover4 _ _)]
  sl_unfold_run_names
  unfold step4 zero4
  simp only [View.readAt_eq_ld, hf0, hf1, canon_cons_r4, View.ld_unit_zero (S := S1024x1024) hz4, View.readCov_unit_zero (S := S1024x1024) _ hz4]

set_option maxHeartbeats 1000000 in
theorem sound_kernel4_B (c : Dev nD) (E : Set ℕ) (i : grid4.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (arg5 : Memref sig .tc .vmem S1024x1024 .f32) (harg5 : arg5.IsWhole)
    (hc0 : ¬cond4_0 i) (hc1 : ¬cond4_1 i)
    (x0 x1 : Vec F S1024x1024 .bf16) (xs : Vec F S1024x1024 .f32) (K : PUnit → sProp 𝕄) :
    iprop(owns (c : Thread nD τ) arg2 fullShare x0 ∗ owns (c : Thread nD τ) arg3 fullShare x1
        ∗ owns (c : Thread nD τ) arg5 fullShare xs
        ∗ (iprop(owns (c : Thread nD τ) arg2 fullShare x0 ∗ owns (c : Thread nD τ) arg3 fullShare x1
              ∗ owns (c : Thread nD τ) arg5 fullShare (step4 xs x0 x1)) -∗ K ⟨⟩))
      ⊢ wp frame (wpE (defs₀ (F := F)) Variants.none c none) E (cc4__output_kernel i arg2 harg2 arg3 harg3 arg4 harg4 arg5 harg5) K := by
  simp only [cc4__output_kernel_eq_skeleton]; unfold cc4__output_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover4 _ _)]
  unfold step4
  simp only [View.readAt_eq_ld, hf0, hf1, canon_cons_r4, View.ld_unit_zero (S := S1024x1024) hz4, View.readCov_unit_zero (S := S1024x1024) _ hz4, hfs]

set_option maxHeartbeats 1000000 in
theorem sound_kernel4_C (c : Dev nD) (E : Set ℕ) (i : grid4.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (arg5 : Memref sig .tc .vmem S1024x1024 .f32) (harg5 : arg5.IsWhole)
    (hc0 : ¬cond4_0 i) (hc1 : cond4_1 i)
    (x0 x1 : Vec F S1024x1024 .bf16) (xs : Vec F S1024x1024 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
              ∗ owns (c : Thread nD τ) arg4 fullShare (step4 xs x0 x1)
              ∗ owns (c : Thread nD τ) arg5 fullShare (step4 xs x0 x1)) -∗ K ⟨⟩))
      ⊢ wp frame (wpE (defs₀ (F := F)) Variants.none c none) E (cc4__output_kernel i arg2 harg2 arg3 harg3 arg4 harg4 arg5 harg5) K := by
  simp only [cc4__output_kernel_eq_skeleton]; unfold cc4__output_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    rw [View.read_writes_eq_canon _ _ _ (cover4 _ _)]
    sl_unfold_run_names
    unfold step4
    simp only [View.readAt_eq_ld, hf0, hf1, canon_cons_r4, View.ld_unit_zero (S := S1024x1024) hz4, View.readCov_unit_zero (S := S1024x1024) _ hz4, hfs]
  iexists _; isplitr
  swap; · iexact HS
  ipureintro
  sl_unfold_run_names
  rw [View.read_writes_eq_canon _ _ _ (cover4 _ _)]
  unfold step4
  simp only [View.readAt_eq_ld, hf0, hf1, canon_cons_r4, View.ld_unit_zero (S := S1024x1024) hz4, View.readCov_unit_zero (S := S1024x1024) _ hz4, hfs]

/-! ## The accumulator, point by point -/

/-- The scratch buffer (the accumulator) as the pipeline passes it to the body. -/
abbrev scM4 : Memref sig .tc .vmem S1024x1024 .f32 := Memref.whole cc4_scratch0

/-- What the accumulator holds after the body at position `n`: at `kj = 0` one step from zero, else one step from what
    the point before left. -/
def acc4 (c : Dev nD) : (n : ℕ) → n < cfg4.N → Vec F S1024x1024 .f32
  | 0, hn => step4 zero4 (iblk4 V c 0 ⟨0, hn⟩) (iblk4 V c 1 ⟨0, hn⟩)
  | n + 1, hn =>
    if (n + 1) % 4 = 0 then step4 zero4 (iblk4 V c 0 ⟨n + 1, hn⟩) (iblk4 V c 1 ⟨n + 1, hn⟩)
    else step4 (acc4 c n (Nat.lt_of_succ_lt hn)) (iblk4 V c 0 ⟨n + 1, hn⟩) (iblk4 V c 1 ⟨n + 1, hn⟩)

/-- At a point with `kj = 0`: one step from zero. -/
theorem acc4_A (c : Dev nD) (t : Fin cfg4.N) (h0 : t.val % 4 = 0) :
    acc4 V c t.val t.isLt = step4 zero4 (iblk4 V c 0 t) (iblk4 V c 1 t) := by
  obtain ⟨n, hn⟩ := t
  cases n with
  | zero => rfl
  | succ n => exact if_pos h0

/-- At a point with `kj ≠ 0`: one step from what the point before left. -/
theorem acc4_B (c : Dev nD) (t : Fin cfg4.N) (h0 : ¬t.val % 4 = 0) :
    acc4 V c t.val t.isLt
      = step4 (acc4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-- The scoped buffers other than the accumulator, and the generator register: carried unopened. -/
abbrev rest4 (c : Dev nD) : sProp 𝕄 :=
  iprop(Pipeline.scopedRestBut (Ix := Unit) (Name := ℕ) (U := UR sig nD τ) (Lvl := ℕ) (Val := Elt F) spec4 c [cc4_scratch0] ∗ (∃ r, prngReg c r))

/-- The region invariant before position `n`: the accumulator at anything before the first point, afterwards at what
    the point before left. -/
def Phi4 (c : Dev nD) : (n : ℕ) → n ≤ cfg4.N → sProp 𝕄
  | 0, _ => iprop((∃ d, owns (c : Thread nD τ) scM4 fullShare d) ∗ rest4 (F := F) c)
  | n + 1, hn => iprop(owns (c : Thread nD τ) scM4 fullShare (acc4 V c n hn) ∗ rest4 (F := F) c)

theorem Phi4_succ (c : Dev nD) (n : ℕ) (hn : n < cfg4.N) :
    Phi4 V c (n + 1) hn = iprop(owns (c : Thread nD τ) scM4 fullShare (acc4 V c n hn) ∗ rest4 (F := F) c) := rfl

theorem Phi4_pos (c : Dev nD) (n : ℕ) (h : n ≤ cfg4.N) (hz : n ≠ 0) :
    Phi4 V c n h = iprop(owns (c : Thread nD τ) scM4 fullShare (acc4 V c (n - 1) (by omega)) ∗ rest4 (F := F) c) := by
  cases n with
  | zero => exact absurd rfl hz
  | succ n => rfl

/-- At any position the invariant holds the accumulator at some contents. -/
theorem Phi4_any (c : Dev nD) (n : ℕ) (h : n ≤ cfg4.N) :
    Phi4 V c n h ⊢ iprop((∃ d, owns (c : Thread nD τ) scM4 fullShare d) ∗ rest4 (F := F) c) := by
  cases n with
  | zero => exact Idealize.SL.BI.Entails.refl _
  | succ n =>
    rw [Phi4_succ]
    iintro ⟨HS, HR⟩
    isplitl [HS]; · iexists _; iexact HS
    iexact HR

/-! ## The pipeline's proof data -/

/-- The proof data of the output kernel's pipeline on core `c`: the arrays as the region finds them; after the body
    each input's buffer at its block and the output's at the accumulator; the invariant `Phi4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point, by the value of `kj`: the invariant hands the body the accumulator (at anything when
    `kj = 0`, else at what the point before left) and takes it back one step further; where `kj ≠ 3` the output's
    buffer is handed back as found, where `kj = 3` it holds the accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [Phi4_castSucc V c t]
  have hN : t.val < 16 := lt_of_lt_of_eq t.isLt (show cfg4.N = 16 from N_4)
  by_cases h0 : t.val % 4 = 0
  · have h1 : ¬t.val % 4 = 3 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [acc4_A V c t h0]
    iintro ⟨HΦ, Ho, ⟨%d0, H0⟩, ⟨%d1, H1⟩, H2⟩
    ihave HΦ' := (Phi4_any V c t.val _) $$ HΦ
    icases HΦ' with ⟨HS, HR⟩
    iapply (sound_kernel4_A c Set.univ (grid4.coords t) _ _ _ _ _ _ _ _ hc0 hc1 (iblk4 V c 0 t) (iblk4 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    iexact H2
  · have hz : t.val ≠ 0 := fun h => h0 (by rw [h])
    have hc0 : ¬cond4_0 (grid4.coords t) := fun h => h0 ((hcond4_0 t).mp h)
    rw [Phi4_pos V c _ _ hz, acc4_B V c t h0]
    by_cases h1 : t.val % 4 = 3
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2, acc4_B V c t h0]
      iintro ⟨⟨HS, HR⟩, Ho, ⟨%d0, H0⟩, ⟨%d1, H1⟩, ⟨%d2, H2⟩⟩
      iapply (sound_kernel4_C c Set.univ (grid4.coords t) _ _ _ _ _ _ _ _ hc0 hc1 (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      iintro ⟨⟨HS, HR⟩, Ho, ⟨%d0, H0⟩, ⟨%d1, H1⟩, H2⟩
      iapply (sound_kernel4_B c Set.univ (grid4.coords t) _ _ _ _ _ _ _ _ hc0 hc1 (iblk4 V c 0 t) (iblk4 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the region is entered with — the generator register and every scoped buffer outside the staging buffers at
    anything — is the invariant before the first point: the accumulator is one of those buffers. -/
theorem hin4 (c : Dev nD) : iprop((∃ r, prngReg c r) ∗ Pipeline.scopedRest (Ix := Unit) (Name := ℕ) (U := UR sig nD τ) (Lvl := ℕ) (Val := Elt F) spec4 c) ⊢ ((dat4 V c).Φ 0 : sProp 𝕄) := by
  rw [show (dat4 V c).Φ 0 = Phi4 V c 0 (Nat.zero_le _) from rfl, show Phi4 V c 0 (Nat.zero_le _) = iprop((∃ d, owns (c : Thread nD τ) scM4 fullShare d) ∗ rest4 (F := F) c) from rfl]
  rw [scopedRest4_split]
  simp only [scM4, owns_whole]
  iintro ⟨Hg, HS, HR⟩
  isplitl [HS]; · iexact HS
  isplitl [HR]; · iexact HR
  iexact Hg

/-- After the last point the invariant gives it back: the accumulator's contents are forgotten. -/
theorem hout4 (c : Dev nD) : ((dat4 V c).Φ (Fin.last cfg4.N) : sProp 𝕄) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl]
  refine (Phi4_any V c _ _).trans ?_
  rw [scopedRest4_split]
  simp only [scM4, owns_whole]
  iintro ⟨HS, HR, Hg⟩
  isplitl [Hg]; · iexact Hg
  isplitl [HS]; · iexact HS
  iexact HR

end Cert.KernelIdeal.Hand
end
-- ==== Proof.KiRegion2.lean ====
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the score kernel (grid 4×4; point t = (qi, ki) = (t / 4, t % 4)), at the entry contents V -/

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the Q block) holds its block at every point, fetched there (ki = 0) or not (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the K block) holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024×1024 block. -/
abbrev r2_m : Rect S1024x1024 := Rect.unit (s := S1024x1024) ![0, 0] S1024x1024.size inb_S1024x1024_S1024x1024_0_0
/-- The whole 1024×1 column of row sums. -/
abbrev r2_v : Rect S1024x1 := Rect.unit (s := S1024x1) ![0, 0] S1024x1.size inb_S1024x1_S1024x1_0_0

/-! ## The body's branch condition -/

/-- The condition of the body's conditional: the second grid coordinate ki is 0. -/
abbrev cond2 (i : grid2.Coords) : Prop := (Scalar.cmpi .ne (Scalar.extui (Scalar.cmpi .eq (BitVec.ofNat 32 (i 1).val) 0#32)) 0#32) = 1#1
/-- It holds exactly at the points with t % 4 = 0 — decided over the 16 points of the grid. -/
theorem hcond2 : ∀ t : Fin cfg2.N, cond2 (grid2.coords t) ↔ t.val % 4 = 0 :=
  (by decide +kernel : ∀ t : Fin grid2.N, cond2 (grid2.coords t) ↔ t.val % 4 = 0)

/-! ## What the body leaves in each output window's buffer -/

/-- Window 2 (the scores e) after the body: its one store of the whole block, exp(Q Kᵀ · 2⁻¹⁰) rounded to bf16. -/
def out2_2 (x0 x1 : Vec F S1024x1024 .bf16) : Vec F S1024x1024 .bf16 :=
  View.canon [⟨r2_m, k2_pay2 (View.ld x0 r2_m) (View.ld x1 r2_m)⟩]

/-- The zeroed column of row sums (what the conditional's store leaves when ki = 0). -/
def zero2_3 : Vec F S1024x1 .f32 :=
  View.canon [⟨r2_v, k2_pay3 (F := F)⟩]

/-- Window 3 (the row sums) after the body, from the running contents prev: prev plus this block's row sums. -/
def out2_3 (x0 x1 : Vec F S1024x1024 .bf16) (prev : Vec F S1024x1 .f32) : Vec F S1024x1 .f32 :=
  View.canon [⟨r2_v, k2_pay4 (View.ld x0 r2_m) (View.ld x1 r2_m) (View.ld prev r2_v)⟩]

theorem cover2_m (p0 : Vec F S1024x1024 .bf16) (y : S1024x1024.Idx) :
    ∃ pc ∈ ([⟨r2_m, p0⟩] : List (View.Piece (Elt F) S1024x1024 .bf16)), y ∈ pc.1.set :=
  View.cover_of_tiled [⟨r2_m, p0⟩] S1024x1024.size (by rfl) y

theorem cover2_v (p0 : Vec F S1024x1 .f32) (y : S1024x1.Idx) :
    ∃ pc ∈ ([⟨r2_v, p0⟩] : List (View.Piece (Elt F) S1024x1 .f32)), y ∈ pc.1.set :=
  View.cover_of_tiled [⟨r2_v, p0⟩] S1024x1.size (by rfl) y

/-! ## The body's triple, case by case -/

set_option maxHeartbeats 1000000 in
/-- Case ki = 0. On whole staging memrefs, the inputs' at contents x0 (Q block) and x1 (K block), the outputs' at anything,
    the body runs to the continuation holding the inputs' as they were, the score block at out2_2 and the row sums at
    out2_3 over the zeroed column: the conditional zeroes the column, which is then read back and added to. -/
theorem sound_kernel2_A (c : Dev nD) (E : Set ℕ) (i : grid2.Coords) (hc : cond2 i)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1 .f32) (harg5 : arg5.IsWhole)
    (x0 x1 : Vec F S1024x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out2_2 x0 x1) ∗ owns (c : Thread nD τ) arg5 fullShare (out2_3 x0 x1 zero2_3)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_m _)
  iexists _; isplitr
  swap; · iexact H3
  ipureintro
  have hz : (![0, 0] : Fin S1024x1.rank → Nat) = fun _ => 0 := funext fun a => by fin_cases a <;> rfl
  rw [View.read_writes_eq_canon _ _ _ (fun y => ⟨_, List.mem_cons_self, View.mem_set_unit_zero hz inb_S1024x1_S1024x1_0_0 y⟩),
    View.canon_cons_unit_zero hz inb_S1024x1_S1024x1_0_0, View.readCov_eq_canon_ld _ _ _ (cover2_v _)]
  unfold out2_3 zero2_3
  refine Eq.trans ?_ (View.canon_unit_zero (Val := Elt F) (S := S1024x1) hz inb_S1024x1_S1024x1_0_0 _).symm
  rfl

set_option maxHeartbeats 1000000 in
/-- Case ki ≠ 0. The same, the row sums' memref at its running contents xo, which the body reads and adds to. -/
theorem sound_kernel2_B (c : Dev nD) (E : Set ℕ) (i : grid2.Coords) (hc : ¬cond2 i)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1 .f32) (harg5 : arg5.IsWhole)
    (x0 x1 : Vec F S1024x1024 .bf16) (xo : Vec F S1024x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (out2_2 x0 x1) ∗ owns (c : Thread nD τ) arg5 fullShare (out2_3 x0 x1 xo)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_m _)
  iexists _; isplitr
  swap; · iexact H3
  ipureintro
  exact View.read_writes_eq_canon _ _ _ (cover2_v _)

/-! ## What the row sums' buffer holds after each point -/

/-- The accumulation. After the body at position n the row sums' staging buffer holds this block's row sums added to:
    the zeroed column when ki = n % 4 = 0, what the point before left otherwise (the buffer is not written back between). -/
def acc2 (c : Dev nD) : (n : ℕ) → n < cfg2.N → Vec F S1024x1 .f32
  | 0, hn => out2_3 (iblk2 V c 0 ⟨0, hn⟩) (iblk2 V c 1 ⟨0, hn⟩) zero2_3
  | n + 1, hn => out2_3 (iblk2 V c 0 ⟨n + 1, hn⟩) (iblk2 V c 1 ⟨n + 1, hn⟩)
      (if (n + 1) % 4 = 0 then zero2_3 else acc2 c n (Nat.lt_of_succ_lt hn))

/-- At a point with ki = 0: over the zeroed column. -/
theorem acc2_A (c : Dev nD) (t : Fin cfg2.N) (h0 : t.val % 4 = 0) :
    acc2 V c t.val t.isLt = out2_3 (iblk2 V c 0 t) (iblk2 V c 1 t) zero2_3 := by
  obtain ⟨n, hn⟩ := t
  cases n with
  | zero => rfl
  | succ n => show out2_3 _ _ (if (n + 1) % 4 = 0 then _ else _) = _; rw [if_pos h0]

/-- At a point with ki ≠ 0: over what the point before left. -/
theorem acc2_B (c : Dev nD) (t : Fin cfg2.N) (h0 : ¬t.val % 4 = 0) :
    acc2 V c t.val t.isLt = out2_3 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h0
  | succ n => show out2_3 _ _ (if (n + 1) % 4 = 0 then _ else _) = _; rw [if_neg h0]; rfl

/-! ## The pipeline's proof data -/

/-- The proof data of this pipeline on core c: the arrays as the region finds them; after the body at point t each
    input's buffer at its block, the scores' at out2_2 of the blocks, the row sums' at acc2; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a point with ki ≠ 0 the row sums' staging buffer holds what the body left at the point before: the point is not
    the first, and the buffer was not written back between (it is only after a point with ki = 3). -/
theorem before2_3_B (c : Dev nD) (t : Fin cfg2.N) (h0 : ¬t.val % 4 = 0) (d) :
    (dat2 V c).before 3 t d = acc2 V c (t.val - 1) (Nat.lt_of_le_of_lt (Nat.sub_le _ _) t.isLt) := by
  have hN : t.val < 16 := lt_of_lt_of_eq t.isLt (show cfg2.N = 16 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 800000 in
/-- The body at any point: the inputs' memrefs hold their blocks; the point is in one of the two cases (ki = 0 or not), and
    when ki ≠ 0 the row sums' memref holds what the point before left; so the case's run applies. The invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  by_cases h0 : t.val % 4 = 0
  · rw [acc2_A V c t h0]
    iintro ⟨HΦ, Ho, ⟨%d0, H0⟩, ⟨%d1, H1⟩, ⟨%d2, H2⟩, ⟨%d3, H3⟩⟩
    iapply (sound_kernel2_A c Set.univ (grid2.coords t) ((hcond2 t).mpr h0) _ _ _ _ _ _ _ _ (iblk2 V c 0 t) (iblk2 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc2_B V c t h0]
    simp only [before2_3_B V c t h0]
    iintro ⟨HΦ, Ho, ⟨%d0, H0⟩, ⟨%d1, H1⟩, ⟨%d2, H2⟩, ⟨%d3, H3⟩⟩
    iapply (sound_kernel2_B c Set.univ (grid2.coords t) (fun h => h0 ((hcond2 t).mp h)) _ _ _ _ _ _ _ _ (iblk2 V c 0 t) (iblk2 V c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
end
-- ==== Proof.KiRun.lean ====
/-
  The run of the whole program: its eight items in order — a reshape of a bias, the Q projection, a reshape, the K projection,
  the score kernel, a reshape, the scaled V projection, the output kernel — each entered with every unscoped buffer at
  known contents and left with them at known contents: a host reshape applies its operation; a kernel region leaves
  each of its windows' arrays at what its write-backs leave and every other buffer as it found it.  Every weakly fair
  execution terminates with every unscoped buffer at the contents the last item leaves.
-/
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import proofs.«123334_j33835752358180_2_alg».proof.Proof.KiRegion0
import proofs.«123334_j33835752358180_2_alg».proof.Proof.KiRegion1
import proofs.«123334_j33835752358180_2_alg».proof.Proof.KiRegion3
import proofs.«123334_j33835752358180_2_alg».proof.Proof.KiRegion4
import proofs.«123334_j33835752358180_2_alg».proof.Proof.KiRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its windows' arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1: its windows' arrays at what the write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After region 2: its windows' arrays at what the write-backs leave, every other buffer as the region found it. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After region 3: its windows' arrays at what the write-backs leave, every other buffer as the region found it. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After region 4: its windows' arrays at what the write-backs leave, every other buffer as the region found it. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-! ## The proof data of the five pipelines and what rides beside the buffers -/

abbrev adm : (p : Fin 5) → (pcfgs (F := F) p).Adm := fun p => (cfgs p).toPCfg_adm
/-- Each pipeline's proof data at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment: entered with every unscoped buffer at `W1`, left with them at `W2`: its arrays are split out of
    the unscoped buffers on entry and put back at what the write-backs leave on exit; the generator register goes into the
    body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`: its arrays are split out of
    the unscoped buffers on entry and put back at what the write-backs leave on exit; the generator register goes into the
    body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`: its arrays are split out of
    the unscoped buffers on entry and put back at what the write-backs leave on exit; the generator register goes into the
    body's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W6`, left with them at `W7`: its arrays are split out of
    the unscoped buffers on entry and put back at what the write-backs leave on exit; the generator register goes into the
    body's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W7`, left with them at `W8`: its arrays are split out of
    the unscoped buffers on entry and put back at what the write-backs leave on exit; the generator register goes into the
    body's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V7 m ρ) c).Φ 0 from rfl]
    iintro ⟨Hp, -, Hr⟩
    iapply (hin4 (V7 m ρ) c)
    isplitl [Hp]; · iexact Hp
    iexact Hr
  hout c := by
    rw [Pipeline.ownSems0_none, show (pdats m ρ 4 c).Φ (Fin.last _) = (dat4 (V7 m ρ) c).Φ (Fin.last cfg4.N) from rfl]
    iintro HΦ
    ihave H := (hout4 (V7 m ρ) c) $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting, with every unscoped buffer of
    every core at the contents the last item leaves (`W8`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KiFrame.lean ====
/-
  What the run leaves, read off: no item writes an argument array — a host reshape writes only its own result, a kernel
  region only its output windows' arrays — so each argument ends as launched; and the result array is what the last
  region's write-backs leave.
-/
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import proofs.«123334_j33835752358180_2_alg».proof.Proof.KiRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [hostOps3, List.Forall, StableHlo.reshape_writes, Finset.mem_singleton]
          exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [hostOps3, List.Forall, StableHlo.reshape_writes, Finset.mem_singleton]
          exact StableHlo.devRef_ne_of_ne (by decide)))
    _ = W4 m ρ c (Proc.devRef .tc main_arg1) := W5_of_ne m ρ c main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := (W7_arr m ρ c 0).trans (((dat3 (V6 m ρ) c).arrAt_in 0 rfl _).trans (A_eq3 (V6 m ρ) c 0))
    _ = W5 m ρ c (Proc.devRef .tc main_arg2) := StableHlo.after_of_forall_not_mem (b := Proc.devRef .tc main_arg2) _ _ (List.forall_iff_forall_mem.mp (by
          simp only [hostOps3, List.Forall, StableHlo.reshape_writes, Finset.mem_singleton]
          exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by
          simp only [hostOps3, List.Forall, StableHlo.reshape_writes, Finset.mem_singleton]
          exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps3, List.Forall, StableHlo.reshape_writes, Finset.mem_singleton]
          exact StableHlo.devRef_ne_of_ne (by decide)))
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [hostOps3, List.Forall, StableHlo.reshape_writes, Finset.mem_singleton]
          exact StableHlo.devRef_ne_of_ne (by decide)))
    _ = W4 m ρ c (Proc.devRef .tc main_arg5) := W5_of_ne m ρ c main_arg5 (by decide)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.Forall, StableHlo.reshape_writes, Finset.mem_singleton]
          exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          exact StableHlo.devRef_ne_of_ne (by decide)))
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := (W7_arr m ρ c 1).trans (((dat3 (V6 m ρ) c).arrAt_in 1 rfl _).trans (A_eq3 (V6 m ρ) c 1))
    _ = W5 m ρ c (Proc.devRef .tc main_arg7) := StableHlo.after_of_forall_not_mem (b := Proc.devRef .tc main_arg7) _ _ (List.forall_iff_forall_mem.mp (by
          simp only [hostOps3, List.Forall, StableHlo.reshape_writes, Finset.mem_singleton]
          exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.reshape_writes, Finset.mem_singleton]
          exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          exact StableHlo.devRef_ne_of_ne (by decide)))
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.Forall, StableHlo.reshape_writes, Finset.mem_singleton]
          exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.reshape_writes, Finset.mem_singleton]
          exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.reshape_writes, Finset.mem_singleton]
          exact StableHlo.devRef_ne_of_ne (by decide)))
    _ = m ((c : Thread nD τ).loc main_arg8) := rfl

/-- The frame: every weakly fair execution terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩) (run_main m ρ)

/-- The same run with the result array named: what region 4's write-backs leave in its output window's array. -/
theorem run_value : θ_run defs (onTc (τ := τ) (main (F := F))) ⟨m, fun _ => 0, ρ⟩ (fun r => ∀ c : Dev nD,
      r.2.mem ((c.tc : Thread nD τ).loc main_v7) = (dat4 (V7 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c _ (mem_uc main_v7 (by decide))).trans (W8_arr m ρ c 2),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩) (run_main m ρ)

end Cert.KernelIdeal.Hand

end
-- ==== Proof.Spec.lean ====
/-
  The attention head as functions of whole arrays over the extended reals, index by index.
  S = 4096 rows, D = 1024 features.  A projection is x·W + b (b a 1×D row); the score matrix is
  e(i,j) = exp((Q_i · K_j)·c) for a scale c; its row sums are den(i) = Σ_k e(i,k); the value projection is
  divided row by row by den (row j by den(j)); and the result is Σ_j e(i,j)·V'(j,d).
-/
import Idealize.ShloMosaic.PureOps.Ideal
import Idealize.ShloMosaic.Lib.ValueIdx

noncomputable section

namespace Cert.Spec

open Idealize.ShloMosaic Idealize.ShloMosaic.ValueIdx

abbrev A_SD : Type := (⟨2, ![4096, 1024]⟩ : Shape).Idx → EReal
abbrev A_DD : Type := (⟨2, ![1024, 1024]⟩ : Shape).Idx → EReal
abbrev A_1D : Type := (⟨2, ![1, 1024]⟩ : Shape).Idx → EReal
abbrev A_SS : Type := (⟨2, ![4096, 4096]⟩ : Shape).Idx → EReal
abbrev A_S1 : Type := (⟨2, ![4096, 1]⟩ : Shape).Idx → EReal

/-- The projection x·W + b: entry (i, j) is Σ_k x(i,k)·W(k,j) + b(0,j). -/
def lin (x : A_SD) (W : A_DD) (b : A_1D) : A_SD := fun i =>
  (∑ k : Fin 1024, x (ix2 (n0 := 4096) (n1 := 1024) (i 0) k) * W (ix2 (n0 := 1024) (n1 := 1024) k (i 1)))
    + b (ix2 (n0 := 1) (n1 := 1024) 0 (i 1))

/-- The score matrix: entry (i, j) is exp((Σ_d Q(i,d)·K(j,d))·c). -/
def escore (c : EReal) (Q K : A_SD) : A_SS := fun i =>
  Ideal.exp ((∑ d : Fin 1024, Q (ix2 (n0 := 4096) (n1 := 1024) (i 0) d) * K (ix2 (n0 := 4096) (n1 := 1024) (i 1) d)) * c)

/-- Row sums as a column: entry (i, 0) is Σ_k E(i,k). -/
def rowsum (E : A_SS) : A_S1 := fun i =>
  ∑ k : Fin 4096, E (ix2 (n0 := 4096) (n1 := 4096) (i 0) k)

/-- Row j of Y divided by den(j). -/
def scaled (Y : A_SD) (den : A_S1) : A_SD := fun i =>
  Ideal.div (Y i) (den (ix2 (n0 := 4096) (n1 := 1) (i 0) 0))

/-- The product E·Y: entry (i, d) is Σ_j E(i,j)·Y(j,d). -/
def pv (E : A_SS) (Y : A_SD) : A_SD := fun i =>
  ∑ j : Fin 4096, E (ix2 (n0 := 4096) (n1 := 4096) (i 0) j) * Y (ix2 (n0 := 4096) (n1 := 1024) j (i 1))

end Cert.Spec

end
-- ==== Proof.KiValueLin.lean ====
import proofs.«123334_j33835752358180_2_alg».proof.Proof.Gen.KernelIdeal.Skeleton
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen

/-! # The projection block x·W + b at an index, over the extended reals

A projection kernel's payload on a block of 1024 rows is the matrix product of the block with the weight
matrix, accumulated from zero, plus the bias row broadcast down the rows; the narrowing format changes are
the identity on extended reals. Entry (p, q) is Σ_k x(p,k)·W(k,q) + b(0,q). -/

/-- The contraction of a block's columns against the weight matrix's rows. -/
abbrev D₁ : DotDims S1024x1024 S1024x1024 S1024x1024 := dot_S1024x1024_S1024x1024_S1024x1024_1_0_0_1_n_n

/-- The left operand index of the product at output (p, q) and contraction position k: its row is p … -/
theorem lhs_row (i : S1024x1024.Idx) (κ : D₁.contr.Idx) : (D₁.lhsIdx i κ 0).val = (i 0).val := by
  unfold DotDims.lhsIdx
  rw [dif_neg (show ¬(0 : Fin S1024x1024.rank) ∈ D₁.lhsBatch by decide), dif_pos (show (0 : Fin S1024x1024.rank) ∈ D₁.lhsNonContracting by decide)]
  rfl
/-- … and its column the contraction position. -/
theorem lhs_col (i : S1024x1024.Idx) (κ : D₁.contr.Idx) : (D₁.lhsIdx i κ 1).val = (κ ⟨0, by decide⟩).val :=
  D₁.lhsIdx_val_of_single rfl i κ
/-- The right operand index: its row is the contraction position … -/
theorem rhs_row (i : S1024x1024.Idx) (κ : D₁.contr.Idx) : (D₁.rhsIdx i κ 0).val = (κ ⟨0, by decide⟩).val :=
  D₁.rhsIdx_val_of_single rfl i κ
/-- … and its column is q. -/
theorem rhs_col (i : S1024x1024.Idx) (κ : D₁.contr.Idx) : (D₁.rhsIdx i κ 1).val = (i 1).val := by
  unfold DotDims.rhsIdx
  rw [dif_neg (show ¬(1 : Fin S1024x1024.rank) ∈ D₁.rhsBatch by decide), dif_pos (show (1 : Fin S1024x1024.rank) ∈ D₁.rhsNonContracting by decide)]
  rfl

/-- The product of two 1024×1024 blocks accumulated from zero, at (p, q): Σ_k x(p,k)·w(k,q). -/
theorem matmul_zero_apply (x w : FVec Ideal S1024x1024 .bf16) (p q : Fin 1024) :
    matmul (F := Ideal) D₁ none x w (constant (F := Ideal) S1024x1024 .f32 0x00000000#32) (ix2 p q) = ∑ k : Fin 1024, x (ix2 p k) * w (ix2 k q) := by
  simp only [matmul]
  rw [Ideal.matmul_constant_zero_apply, ← Equiv.sum_comp (contrEquiv1 D₁ 1024 rfl rfl).symm]
  refine Finset.sum_congr rfl fun k _ => ?_
  have hk := contrEquiv1_symm_val D₁ 1024 rfl rfl k
  have el : D₁.lhsIdx (ix2 p q) ((contrEquiv1 D₁ 1024 rfl rfl).symm k) = ix2 p k := funext fun a => Fin.ext (by
    match a with
    | ⟨0, _⟩ => exact lhs_row _ _
    | ⟨1, _⟩ => exact (lhs_col _ _).trans hk)
  have er : D₁.rhsIdx (ix2 p q) ((contrEquiv1 D₁ 1024 rfl rfl).symm k) = ix2 k q := funext fun a => Fin.ext (by
    match a with
    | ⟨0, _⟩ => exact (rhs_row _ _).trans hk
    | ⟨1, _⟩ => exact rhs_col _ _)
  rw [el, er]

/-- The bias row broadcast down the rows, at (p, q): b(0, q). -/
theorem bias_apply (b : FVec Ideal S1x1024 .f32) (p q : Fin 1024) :
    broadcastTo S1024x1024 (shapeCast S1x1024 b shapeCasts_S1x1024_S1x1024) broadcasts_S1x1024_S1024x1024 (ix2 p q) = b (ix2 0 q) := by
  rw [shapeCast_self]
  exact broadcastTo_apply b _ (ix2 p q) (ix2 0 q) (fun a => by match a with | ⟨0, _⟩ => rfl | ⟨1, _⟩ => rfl)

/-- The projection block at (p, q). -/
theorem linBlock_apply (x w : FVec Ideal S1024x1024 .f32) (b : FVec Ideal S1x1024 .f32) (p q : Fin 1024) :
    addf (F := Ideal) (matmul (F := Ideal) D₁ none (truncf .bf16 x bitsLt_bf16_f32) (truncf .bf16 w bitsLt_bf16_f32) (constant (F := Ideal) S1024x1024 .f32 0x00000000#32))
        (broadcastTo S1024x1024 (shapeCast S1x1024 b shapeCasts_S1x1024_S1x1024) broadcasts_S1x1024_S1024x1024) (ix2 p q)
      = (∑ k : Fin 1024, x (ix2 p k) * w (ix2 k q)) + b (ix2 0 q) := by
  rw [addf_apply, matmul_zero_apply, bias_apply]
  rfl

/-- The projection of whole arrays at the index whose row is r and whose column is q. -/
theorem lin_apply (X : Cert.Spec.A_SD) (W : Cert.Spec.A_DD) (b : Cert.Spec.A_1D) (i : S4096x1024.Idx) (r : Fin 4096) (q : Fin 1024)
    (h0 : (i 0).val = r.val) (h1 : (i 1).val = q.val) :
    Cert.Spec.lin X W b i = (∑ k : Fin 1024, X (ix2 r k) * W (ix2 k q)) + b (ix2 0 q) := by
  have e : i = ix2 r q := funext fun a => Fin.ext (by match a with | ⟨0, _⟩ => exact h0 | ⟨1, _⟩ => exact h1)
  subst e
  rfl

end Cert.KernelIdeal.HandValue

end
-- ==== Proof.KiValue0.lean ====
import proofs.«123334_j33835752358180_2_alg».proof.Proof.KiRegion0
import proofs.«123334_j33835752358180_2_alg».proof.Proof.KiValueLin
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen
open Cert.KernelIdeal.Hand
variable (V : (c : Dev nD) → (b : Ref sig .tc) → Buf (Elt Ideal) ((c : Thread nD τ).loc b))

/-! # Region 0's output array after the region: the projection x·W + b of the arrays it was entered with

The grid has four points; point t loads rows 1024·t … 1024·t + 1023 of x, the whole of W and of the bias row,
and writes back rows 1024·t … 1024·t + 1023 of the output. So the block a point writes back is the projection
read through that block, and the four blocks tile the array. -/

theorem hz0 : (![0, 0] : Fin 2 → Nat) = fun _ => 0 := funext fun a => by fin_cases a <;> rfl

/-- The block index maps over the grid: the row windows (x and the output) sit at block row t, column 0; the
    weight matrix and the bias row are one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The payload at (p, q) of its three loaded blocks. -/
theorem pay0_apply (x w : Vec Ideal S1024x1024 .f32) (b : Vec Ideal S1x1024 .f32) (p q : Fin 1024) :
    k0_pay1 (F := Ideal) x w b (ix2 p q) = (∑ k : Fin 1024, x (ix2 p k) * w (ix2 k q)) + b (ix2 0 q) :=
  linBlock_apply x w b p q

/-- What point `t` writes back is block `t` of the projection of the arrays as the region finds them. -/
theorem flushed0_eq (c : Dev nD) (t : Fin cfg0.N) :
    (dat0 V c).flushed 3 t = ((cfg0.win 3).blk t).view.read (Elt Ideal) (Cert.Spec.lin (V c main_arg0) (V c main_arg3) (V c main_v0)) := by
  show (cfg0.win 3).cut (grid0.coords t) ((dat0 V c).after 3 t) = _
  rw [after0_3]
  unfold out0_3
  rw [View.canon_unit_zero hz0]
  simp only [View.ld_unit_zero (S := S1024x1024) hz0, View.ld_unit_zero (S := S1x1024) hz0]
  obtain ⟨e00, e01, e10, e11, e20, e21, e30, e31⟩ := idx_facts0 t
  have hN : t.val < 4 := by have h := t.isLt; have hn : cfg0.N = 4 := N_0; omega
  funext j
  obtain ⟨p, q, rfl⟩ : ∃ (p q : Fin 1024), j = ix2 p q := ⟨j 0, j 1, eq_ix2 j⟩
  show k0_pay1 (F := Ideal) (iblk0 V c 0 t) (iblk0 V c 1 t) (iblk0 V c 2 t) (ix2 p q)
    = Cert.Spec.lin (V c main_arg0) (V c main_arg3) (V c main_v0) (((cfg0.win 3).blk t).view.emb (ix2 p q))
  refine (pay0_apply (iblk0 V c 0 t) (iblk0 V c 1 t) (iblk0 V c 2 t) p q).trans ?_
  have hp : p.val < 1024 := p.isLt
  refine Eq.symm ((lin_apply _ _ _ _ ⟨t.val * 1024 + p.val, by omega⟩ q ?_ ?_).trans ?_)
  · show win0_3.index t (0 : Fin 2) * 1024 + 1 * p.val = t.val * 1024 + p.val; omega
  · show win0_3.index t (1 : Fin 2) * 1024 + 1 * q.val = q.val; omega
  · refine congrArg₂ (· + ·) (Finset.sum_congr rfl fun k _ => congrArg₂ (· * ·) ?_ ?_) ?_
    · show V c main_arg0 _ = V c main_arg0 (((cfg0.win 0).blk t).view.emb (ix2 p k))
      refine congrArg _ (funext fun a => Fin.ext ?_)
      match a with
      | ⟨0, _⟩ => show t.val * 1024 + p.val = win0_0.index t (0 : Fin 2) * 1024 + 1 * p.val; omega
      | ⟨1, _⟩ => show k.val = win0_0.index t (1 : Fin 2) * 1024 + 1 * k.val; omega
    · show V c main_arg3 _ = V c main_arg3 (((cfg0.win 1).blk t).view.emb (ix2 k q))
      refine congrArg _ (funext fun a => Fin.ext ?_)
      match a with
      | ⟨0, _⟩ => show k.val = win0_1.index t (0 : Fin 2) * 1024 + 1 * k.val; omega
      | ⟨1, _⟩ => show q.val = win0_1.index t (1 : Fin 2) * 1024 + 1 * q.val; omega
    · show V c main_v0 _ = V c main_v0 (((cfg0.win 2).blk t).view.emb (ix2 0 q))
      refine congrArg _ (funext fun a => Fin.ext ?_)
      match a with
      | ⟨0, _⟩ => show 0 = win0_2.index t (0 : Fin 2) * 1 + 1 * 0; omega
      | ⟨1, _⟩ => show q.val = win0_2.index t (1 : Fin 2) * 1024 + 1 * q.val; omega

/-- An index of the output array is in point `t`'s block iff each coordinate is in the block's range on its axis. -/
theorem mem_blk0 (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the output array is in some point's block: row r is in the block of point r / 1024. -/
theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hn : cfg0.N = 4 := N_0
  obtain ⟨t, ht⟩ : ∃ t : Fin cfg0.N, t.val = (i 0).val / 1024 := ⟨⟨(i 0).val / 1024, by omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region is the projection of the arrays the region was entered with. -/
theorem final0 (c : Dev nD) : ((dat0 (F := Ideal) V c).arrAt 3 cfg0.N) = Cert.Spec.lin (V c main_arg0) (V c main_arg3) (V c main_v0) :=
  (dat0 V c).arrAt_eq_of_cover 3 (Cert.Spec.lin (V c main_arg0) (V c main_arg3) (V c main_v0)) (fun t _ => flushed0_eq V c t) cover0

end Cert.KernelIdeal.HandValue

end
-- ==== Proof.KiValue1.lean ====
import proofs.«123334_j33835752358180_2_alg».proof.Proof.KiRegion1
import proofs.«123334_j33835752358180_2_alg».proof.Proof.KiValueLin
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen
open Cert.KernelIdeal.Hand
variable (V : (c : Dev nD) → (b : Ref sig .tc) → Buf (Elt Ideal) ((c : Thread nD τ).loc b))

/-! # Region 1's output array after the region: the projection x·W + b of the arrays it was entered with

The grid has four points; point t loads rows 1024·t … 1024·t + 1023 of x, the whole of W and of the bias row,
and writes back rows 1024·t … 1024·t + 1023 of the output. So the block a point writes back is the projection
read through that block, and the four blocks tile the array. -/

theorem hz1 : (![0, 0] : Fin 2 → Nat) = fun _ => 0 := funext fun a => by fin_cases a <;> rfl

/-- The block index maps over the grid: the row windows (x and the output) sit at block row t, column 0; the
    weight matrix and the bias row are one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The payload at (p, q) of its three loaded blocks. -/
theorem pay1_apply (x w : Vec Ideal S1024x1024 .f32) (b : Vec Ideal S1x1024 .f32) (p q : Fin 1024) :
    k1_pay1 (F := Ideal) x w b (ix2 p q) = (∑ k : Fin 1024, x (ix2 p k) * w (ix2 k q)) + b (ix2 0 q) :=
  linBlock_apply x w b p q

/-- What point `t` writes back is block `t` of the projection of the arrays as the region finds them. -/
theorem flushed1_eq (c : Dev nD) (t : Fin cfg1.N) :
    (dat1 V c).flushed 3 t = ((cfg1.win 3).blk t).view.read (Elt Ideal) (Cert.Spec.lin (V c main_arg1) (V c main_arg5) (V c main_v2)) := by
  show (cfg1.win 3).cut (grid1.coords t) ((dat1 V c).after 3 t) = _
  rw [after1_3]
  unfold out1_3
  rw [View.canon_unit_zero hz1]
  simp only [View.ld_unit_zero (S := S1024x1024) hz1, View.ld_unit_zero (S := S1x1024) hz1]
  obtain ⟨e00, e01, e10, e11, e20, e21, e30, e31⟩ := idx_facts1 t
  have hN : t.val < 4 := by have h := t.isLt; have hn : cfg1.N = 4 := N_1; omega
  funext j
  obtain ⟨p, q, rfl⟩ : ∃ (p q : Fin 1024), j = ix2 p q := ⟨j 0, j 1, eq_ix2 j⟩
  show k1_pay1 (F := Ideal) (iblk1 V c 0 t) (iblk1 V c 1 t) (iblk1 V c 2 t) (ix2 p q)
    = Cert.Spec.lin (V c main_arg1) (V c main_arg5) (V c main_v2) (((cfg1.win 3).blk t).view.emb (ix2 p q))
  refine (pay1_apply (iblk1 V c 0 t) (iblk1 V c 1 t) (iblk1 V c 2 t) p q).trans ?_
  have hp : p.val < 1024 := p.isLt
  refine Eq.symm ((lin_apply _ _ _ _ ⟨t.val * 1024 + p.val, by omega⟩ q ?_ ?_).trans ?_)
  · show win1_3.index t (0 : Fin 2) * 1024 + 1 * p.val = t.val * 1024 + p.val; omega
  · show win1_3.index t (1 : Fin 2) * 1024 + 1 * q.val = q.val; omega
  · refine congrArg₂ (· + ·) (Finset.sum_congr rfl fun k _ => congrArg₂ (· * ·) ?_ ?_) ?_
    · show V c main_arg1 _ = V c main_arg1 (((cfg1.win 0).blk t).view.emb (ix2 p k))
      refine congrArg _ (funext fun a => Fin.ext ?_)
      match a with
      | ⟨0, _⟩ => show t.val * 1024 + p.val = win1_0.index t (0 : Fin 2) * 1024 + 1 * p.val; omega
      | ⟨1, _⟩ => show k.val = win1_0.index t (1 : Fin 2) * 1024 + 1 * k.val; omega
    · show V c main_arg5 _ = V c main_arg5 (((cfg1.win 1).blk t).view.emb (ix2 k q))
      refine congrArg _ (funext fun a => Fin.ext ?_)
      match a with
      | ⟨0, _⟩ => show k.val = win1_1.index t (0 : Fin 2) * 1024 + 1 * k.val; omega
      | ⟨1, _⟩ => show q.val = win1_1.index t (1 : Fin 2) * 1024 + 1 * q.val; omega
    · show V c main_v2 _ = V c main_v2 (((cfg1.win 2).blk t).view.emb (ix2 0 q))
      refine congrArg _ (funext fun a => Fin.ext ?_)
      match a with
      | ⟨0, _⟩ => show 0 = win1_2.index t (0 : Fin 2) * 1 + 1 * 0; omega
      | ⟨1, _⟩ => show q.val = win1_2.index t (1 : Fin 2) * 1024 + 1 * q.val; omega

/-- An index of the output array is in point `t`'s block iff each coordinate is in the block's range on its axis. -/
theorem mem_blk1 (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every index of the output array is in some point's block: row r is in the block of point r / 1024. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hn : cfg1.N = 4 := N_1
  obtain ⟨t, ht⟩ : ∃ t : Fin cfg1.N, t.val = (i 0).val / 1024 := ⟨⟨(i 0).val / 1024, by omega⟩, rfl⟩
  obtain ⟨-, -, -, -, -, -, e30, e31⟩ := idx_facts1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the region is the projection of the arrays the region was entered with. -/
theorem final1 (c : Dev nD) : ((dat1 (F := Ideal) V c).arrAt 3 cfg1.N) = Cert.Spec.lin (V c main_arg1) (V c main_arg5) (V c main_v2) :=
  (dat1 V c).arrAt_eq_of_cover 3 (Cert.Spec.lin (V c main_arg1) (V c main_arg5) (V c main_v2)) (fun t _ => flushed1_eq V c t) cover1

end Cert.KernelIdeal.HandValue

end
-- ==== Proof.KiValue3.lean ====
import proofs.«123334_j33835752358180_2_alg».proof.Proof.KiRegion3
import proofs.«123334_j33835752358180_2_alg».proof.Proof.KiValueLin
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen
open Cert.KernelIdeal.Hand
variable (V : (c : Dev nD) → (b : Ref sig .tc) → Buf (Elt Ideal) ((c : Thread nD τ).loc b))

/-! # Region 3's output array after the region: the projection x·W + b, row r divided by den(r)

The grid has four points; point t loads rows 1024·t … 1024·t + 1023 of x and of the column den, the whole of W
and of the bias row, and writes back rows 1024·t … 1024·t + 1023 of the output. So the block a point writes back
is the scaled projection read through that block, and the four blocks tile the array. -/

theorem hz3 : (![0, 0] : Fin 2 → Nat) = fun _ => 0 := funext fun a => by fin_cases a <;> rfl

/-- The block index maps over the grid: the row windows (x, the column den and the output) sit at block row t,
    column 0; the weight matrix and the bias row are one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The column of divisors broadcast along the rows, at (p, q): d(p, 0). -/
theorem den_apply (d : FVec Ideal S1024x1 .f32) (p q : Fin 1024) :
    broadcastTo S1024x1024 (shapeCast S1024x1 d shapeCasts_S1024x1_S1024x1) broadcasts_S1024x1_S1024x1024 (ix2 p q) = d (ix2 p 0) := by
  rw [shapeCast_self]
  exact broadcastTo_apply d _ (ix2 p q) (ix2 p 0) (fun a => by match a with | ⟨0, _⟩ => rfl | ⟨1, _⟩ => rfl)

/-- The payload at (p, q) of its four loaded blocks. -/
theorem pay3_apply (x w : Vec Ideal S1024x1024 .f32) (b : Vec Ideal S1x1024 .f32) (d : Vec Ideal S1024x1 .f32) (p q : Fin 1024) :
    k3_pay1 (F := Ideal) x w b d (ix2 p q) = Ideal.div ((∑ k : Fin 1024, x (ix2 p k) * w (ix2 k q)) + b (ix2 0 q)) (d (ix2 p 0)) :=
  congrArg₂ Ideal.div (linBlock_apply x w b p q) (den_apply d p q)

/-- The scaled array at the index whose row is r and whose column is q. -/
theorem scaled_apply (Y : Cert.Spec.A_SD) (den : Cert.Spec.A_S1) (i : S4096x1024.Idx) (r : Fin 4096) (q : Fin 1024)
    (h0 : (i 0).val = r.val) (h1 : (i 1).val = q.val) :
    Cert.Spec.scaled Y den i = Ideal.div (Y (ix2 r q)) (den (ix2 r 0)) := by
  have e : i = ix2 r q := funext fun a => Fin.ext (by match a with | ⟨0, _⟩ => exact h0 | ⟨1, _⟩ => exact h1)
  subst e
  rfl

/-- What point `t` writes back is block `t` of the scaled projection of the arrays as the region finds them. -/
theorem flushed3_eq (c : Dev nD) (t : Fin cfg3.N) :
    (dat3 V c).flushed 4 t = ((cfg3.win 4).blk t).view.read (Elt Ideal)
      (Cert.Spec.scaled (Cert.Spec.lin (V c main_arg2) (V c main_arg7) (V c main_v5)) (V c main_v4_1)) := by
  show (cfg3.win 4).cut (grid3.coords t) ((dat3 V c).after 4 t) = _
  rw [after3_4]
  unfold out3_4
  rw [View.canon_unit_zero hz3]
  simp only [View.ld_unit_zero (S := S1024x1024) hz3, View.ld_unit_zero (S := S1x1024) hz3, View.ld_unit_zero (S := S1024x1) hz3]
  obtain ⟨e00, e01, e10, e11, e20, e21, e30, e31, e40, e41⟩ := idx_facts3 t
  have hN : t.val < 4 := by have h := t.isLt; have hn : cfg3.N = 4 := N_3; omega
  funext j
  obtain ⟨p, q, rfl⟩ : ∃ (p q : Fin 1024), j = ix2 p q := ⟨j 0, j 1, eq_ix2 j⟩
  show k3_pay1 (F := Ideal) (iblk3 V c 0 t) (iblk3 V c 1 t) (iblk3 V c 2 t) (iblk3 V c 3 t) (ix2 p q)
    = Cert.Spec.scaled (Cert.Spec.lin (V c main_arg2) (V c main_arg7) (V c main_v5)) (V c main_v4_1) (((cfg3.win 4).blk t).view.emb (ix2 p q))
  refine (pay3_apply (iblk3 V c 0 t) (iblk3 V c 1 t) (iblk3 V c 2 t) (iblk3 V c 3 t) p q).trans ?_
  have hp : p.val < 1024 := p.isLt
  refine Eq.symm ((scaled_apply _ _ _ ⟨t.val * 1024 + p.val, by omega⟩ q ?_ ?_).trans ?_)
  · show win3_4.index t (0 : Fin 2) * 1024 + 1 * p.val = t.val * 1024 + p.val; omega
  · show win3_4.index t (1 : Fin 2) * 1024 + 1 * q.val = q.val; omega
  rw [lin_apply _ _ _ _ ⟨t.val * 1024 + p.val, by omega⟩ q rfl rfl]
  refine congrArg₂ Ideal.div (congrArg₂ (· + ·) (Finset.sum_congr rfl fun k _ => congrArg₂ (· * ·) ?_ ?_) ?_) ?_
  · show V c main_arg2 _ = V c main_arg2 (((cfg3.win 0).blk t).view.emb (ix2 p k))
    refine congrArg _ (funext fun a => Fin.ext ?_)
    match a with
    | ⟨0, _⟩ => show t.val * 1024 + p.val = win3_0.index t (0 : Fin 2) * 1024 + 1 * p.val; omega
    | ⟨1, _⟩ => show k.val = win3_0.index t (1 : Fin 2) * 1024 + 1 * k.val; omega
  · show V c main_arg7 _ = V c main_arg7 (((cfg3.win 1).blk t).view.emb (ix2 k q))
    refine congrArg _ (funext fun a => Fin.ext ?_)
    match a with
    | ⟨0, _⟩ => show k.val = win3_1.index t (0 : Fin 2) * 1024 + 1 * k.val; omega
    | ⟨1, _⟩ => show q.val = win3_1.index t (1 : Fin 2) * 1024 + 1 * q.val; omega
  · show V c main_v5 _ = V c main_v5 (((cfg3.win 2).blk t).view.emb (ix2 0 q))
    refine congrArg _ (funext fun a => Fin.ext ?_)
    match a with
    | ⟨0, _⟩ => show 0 = win3_2.index t (0 : Fin 2) * 1 + 1 * 0; omega
    | ⟨1, _⟩ => show q.val = win3_2.index t (1 : Fin 2) * 1024 + 1 * q.val; omega
  · show V c main_v4_1 _ = V c main_v4_1 (((cfg3.win 3).blk t).view.emb (ix2 p 0))
    refine congrArg _ (funext fun a => Fin.ext ?_)
    match a with
    | ⟨0, _⟩ => show t.val * 1024 + p.val = win3_3.index t (0 : Fin 2) * 1024 + 1 * p.val; omega
    | ⟨1, _⟩ => show 0 = win3_3.index t (1 : Fin 2) * 1 + 1 * 0; omega

/-- An index of the output array is in point `t`'s block iff each coordinate is in the block's range on its axis. -/
theorem mem_blk3 (t : Fin cfg3.N) (i : S4096x1024.Idx) :
    i ∈ ((cfg3.win 4).blk t).view.set ↔ ∀ a : Fin 2, win3_4.index t a * S1024x1024.size a ≤ (i a).val ∧ (i a).val < win3_4.index t a * S1024x1024.size a + S1024x1024.size a := by
  show i ∈ ((View.whole main_v6).slice (win3_4.rect t)).set ↔ _
  rw [View.set_slice_whole, Rect.mem_set_unit]
  exact Iff.rfl

/-- Every index of the output array is in some point's block: row r is in the block of point r / 1024. -/
theorem cover3 (i : S4096x1024.Idx) : ∃ t : Fin cfg3.N, (cfg3.win 4).flush t = true ∧ i ∈ ((cfg3.win 4).blk t).view.set := by
  have hi0 : (i 0).val < 4096 := (i 0).isLt
  have hi1 : (i 1).val < 1024 := (i 1).isLt
  have hn : cfg3.N = 4 := N_3
  obtain ⟨t, ht⟩ : ∃ t : Fin cfg3.N, t.val = (i 0).val / 1024 := ⟨⟨(i 0).val / 1024, by omega⟩, rfl⟩
  obtain ⟨-, -, -, -, -, -, -, -, e40, e41⟩ := idx_facts3 t
  refine ⟨t, flush3_4 t, ?_⟩
  rw [mem_blk3]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 1024 ≤ (i 1).val ∧ (i 1).val < win3_4.index t (1 : Fin 2) * 1024 + 1024; omega

/-- The output array after the region is the scaled projection of the arrays the region was entered with. -/
theorem final3 (c : Dev nD) : ((dat3 (F := Ideal) V c).arrAt 4 cfg3.N)
    = Cert.Spec.scaled (Cert.Spec.lin (V c main_arg2) (V c main_arg7) (V c main_v5)) (V c main_v4_1) :=
  (dat3 V c).arrAt_eq_of_cover 4 (Cert.Spec.scaled (Cert.Spec.lin (V c main_arg2) (V c main_arg7) (V c main_v5)) (V c main_v4_1)) (fun t _ => flushed3_eq V c t) cover3

end Cert.KernelIdeal.HandValue

end
-- ==== Proof.KiValue4Acc.lean ====
/-
  The accumulator of the output kernel (region 4) read at an index over the extended reals: the zero block, one
  accumulation step, the two input blocks as entries of the whole arrays, and the accumulator after each grid point.
-/
import proofs.«123334_j33835752358180_2_alg».proof.Proof.KiRegion4
import proofs.«123334_j33835752358180_2_alg».proof.Proof.KiValueLin
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen
open Cert.KernelIdeal.Hand
variable (V : (c : Dev nD) → (b : Ref sig .tc) → Buf (Elt Ideal) ((c : Thread nD τ).loc b))

/-! # The accumulator of the output kernel at an index, over the extended reals

Point `n` of the grid is `(qi, kj) = (n / 4, n % 4)`. It loads the block of the score matrix at rows
`1024·qi …`, columns `1024·kj …`, and the block of the scaled values at rows `1024·kj …`. One accumulation step adds
the product of the two blocks; the accumulator starts from zero at `kj = 0`. So after point `n` its entry `(p, q)`
is the sum, over the column blocks `s ≤ kj` and the 1024 positions `k` of each, of
`E(1024·qi + p, 1024·s + k) · Y(1024·s + k, q)`. -/

/-- Entry `(r, j)` of a 4096 × 4096 array, the coordinates given as natural numbers (read modulo the extents). -/
def eAt (E : Cert.Spec.A_SS) (r j : ℕ) : EReal :=
  E (ix2 (n0 := 4096) (n1 := 4096) ⟨r % 4096, Nat.mod_lt _ (by decide)⟩ ⟨j % 4096, Nat.mod_lt _ (by decide)⟩)

/-- Entry `(j, q)` of a 4096 × 1024 array, the row given as a natural number (read modulo the extent). -/
def yAt (Y : Cert.Spec.A_SD) (j : ℕ) (q : Fin 1024) : EReal :=
  Y (ix2 (n0 := 4096) (n1 := 1024) ⟨j % 4096, Nat.mod_lt _ (by decide)⟩ q)

/-- The zero block at an index. -/
theorem zero4_apply (j : S1024x1024.Idx) : (zero4 (F := Ideal)) j = 0 := by
  show shapeCast S1024x1024 (broadcast S1024x1024 (Scalar.ofBits (F := Ideal) .f32 0x00000000#32)) shapeCasts_S1024x1024_S1024x1024 j = 0
  rw [shapeCast_self]
  exact Ideal.ofBits_zero_f32

/-- One accumulation step as a term, at (p, q): the old entry plus Σ_k x0(p,k)·x1(k,q). -/
theorem stepTerm_apply (xs : FVec Ideal S1024x1024 .f32) (x0 x1 : FVec Ideal S1024x1024 .bf16) (p q : Fin 1024) :
    shapeCast S1024x1024 (addf (F := Ideal) xs (matmul (F := Ideal) D₁ none (shapeCast S1024x1024 x0 shapeCasts_S1024x1024_S1024x1024)
        (shapeCast S1024x1024 x1 shapeCasts_S1024x1024_S1024x1024) (constant (F := Ideal) S1024x1024 .f32 0x00000000#32)))
      shapeCasts_S1024x1024_S1024x1024 (ix2 p q)
      = xs (ix2 p q) + ∑ k : Fin 1024, x0 (ix2 p k) * x1 (ix2 k q) := by
  rw [shapeCast_self, shapeCast_self, shapeCast_self, addf_apply, matmul_zero_apply]

/-- One accumulation step at (p, q). -/
theorem step4_apply (xs : Vec Ideal S1024x1024 .f32) (x0 x1 : Vec Ideal S1024x1024 .bf16) (p q : Fin 1024) :
    step4 (F := Ideal) xs x0 x1 (ix2 p q) = xs (ix2 p q) + ∑ k : Fin 1024, x0 (ix2 p k) * x1 (ix2 k q) :=
  stepTerm_apply xs x0 x1 p q

/-- The block index maps over the grid: the score block sits at (qi, kj), the value block at (kj, 0), the output
    block at (qi, 0). -/
theorem idx_facts4 : ∀ t : Fin cfg4.N,
    win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = t.val / 4 ∧ win4_2.index t (1 : Fin 2) = 0 :=
  (by decide +kernel : ∀ t : Fin grid4.N, _)

/-- The score block of point `t` at (p, k). -/
theorem blk0_apply (c : Dev nD) (t : Fin cfg4.N) (p k : Fin 1024) :
    (iblk4 V c 0 t : Vec Ideal S1024x1024 .bf16) (ix2 p k) = eAt (V c main_v4_0) (t.val / 4 * 1024 + p.val) (1024 * (t.val % 4) + k.val) := by
  obtain ⟨e00, e01, -, -, -, -⟩ := idx_facts4 t
  have hN : t.val < 16 := lt_of_lt_of_eq t.isLt (show cfg4.N = 16 from N_4)
  have hp := p.isLt
  have hk := k.isLt
  show V c main_v4_0 (((cfg4.win 0).blk t).view.emb (ix2 p k)) = _
  unfold eAt
  refine congrArg _ (funext fun a => Fin.ext ?_)
  match a with
  | ⟨0, _⟩ => show win4_0.index t (0 : Fin 2) * 1024 + 1 * p.val = (t.val / 4 * 1024 + p.val) % 4096; omega
  | ⟨1, _⟩ => show win4_0.index t (1 : Fin 2) * 1024 + 1 * k.val = (1024 * (t.val % 4) + k.val) % 4096; omega

/-- The value block of point `t` at (k, q). -/
theorem blk1_apply (c : Dev nD) (t : Fin cfg4.N) (k q : Fin 1024) :
    (iblk4 V c 1 t : Vec Ideal S1024x1024 .bf16) (ix2 k q) = yAt (V c main_v6) (1024 * (t.val % 4) + k.val) q := by
  obtain ⟨-, -, e10, e11, -, -⟩ := idx_facts4 t
  have hN : t.val < 16 := lt_of_lt_of_eq t.isLt (show cfg4.N = 16 from N_4)
  have hq := q.isLt
  have hk := k.isLt
  show V c main_v6 (((cfg4.win 1).blk t).view.emb (ix2 k q)) = _
  unfold yAt
  refine congrArg _ (funext fun a => Fin.ext ?_)
  match a with
  | ⟨0, _⟩ => show win4_1.index t (0 : Fin 2) * 1024 + 1 * k.val = (1024 * (t.val % 4) + k.val) % 4096; omega
  | ⟨1, _⟩ => show win4_1.index t (1 : Fin 2) * 1024 + 1 * q.val = q.val; omega

/-- The product of point `t`'s two blocks at (p, q): column block `kj`'s share of the row's sum. -/
theorem prod_apply (c : Dev nD) (t : Fin cfg4.N) (p q : Fin 1024) (x0 x1 : FVec Ideal S1024x1024 .bf16)
    (h0 : x0 = iblk4 V c 0 t) (h1 : x1 = iblk4 V c 1 t) :
    (∑ k : Fin 1024, x0 (ix2 p k) * x1 (ix2 k q))
      = ∑ k : Fin 1024, eAt (V c main_v4_0) (t.val / 4 * 1024 + p.val) (1024 * (t.val % 4) + k.val) * yAt (V c main_v6) (1024 * (t.val % 4) + k.val) q := by
  subst h0 h1
  exact Finset.sum_congr rfl fun k _ => congrArg₂ (· * ·) (blk0_apply V c t p k) (blk1_apply V c t k q)

/-- The accumulator's defining equations, by position. -/
theorem acc4_zero (c : Dev nD) (hn : 0 < cfg4.N) :
    acc4 V c 0 hn = step4 zero4 (iblk4 V c 0 ⟨0, hn⟩) (iblk4 V c 1 ⟨0, hn⟩) := rfl
theorem acc4_succ_pos (c : Dev nD) (n : ℕ) (hn : n + 1 < cfg4.N) (h0 : (n + 1) % 4 = 0) :
    acc4 V c (n + 1) hn = step4 zero4 (iblk4 V c 0 ⟨n + 1, hn⟩) (iblk4 V c 1 ⟨n + 1, hn⟩) := if_pos h0
theorem acc4_succ_neg (c : Dev nD) (n : ℕ) (hn : n + 1 < cfg4.N) (h0 : ¬(n + 1) % 4 = 0) :
    acc4 V c (n + 1) hn = step4 (acc4 V c n (Nat.lt_of_succ_lt hn)) (iblk4 V c 0 ⟨n + 1, hn⟩) (iblk4 V c 1 ⟨n + 1, hn⟩) := if_neg h0

/-- The accumulator after point `n`, at (p, q): the column blocks `s ≤ kj` summed. -/
theorem acc4_apply (c : Dev nD) (p q : Fin 1024) : ∀ (n : ℕ) (hn : n < cfg4.N),
    acc4 V c n hn (ix2 p q) = ∑ s ∈ Finset.range (n % 4 + 1), ∑ k : Fin 1024,
      eAt (V c main_v4_0) (n / 4 * 1024 + p.val) (1024 * s + k.val) * yAt (V c main_v6) (1024 * s + k.val) q := by
  intro n
  induction n with
  | zero =>
    intro hn
    rw [acc4_zero, step4_apply, zero4_apply, zero_add, prod_apply V c ⟨0, hn⟩ p q _ _ rfl rfl]
    simp only [Nat.zero_mod, Nat.zero_div, Nat.zero_add, Finset.range_one, Finset.sum_singleton]
  | succ n ih =>
    intro hn
    by_cases h0 : (n + 1) % 4 = 0
    · rw [acc4_succ_pos V c n hn h0, step4_apply, zero4_apply, zero_add, prod_apply V c ⟨n + 1, hn⟩ p q _ _ rfl rfl]
      simp only [h0, Nat.zero_add, Finset.range_one, Finset.sum_singleton]
    · rw [acc4_succ_neg V c n hn h0, step4_apply, ih (Nat.lt_of_succ_lt hn), prod_apply V c ⟨n + 1, hn⟩ p q _ _ rfl rfl]
      have e1 : n / 4 = (n + 1) / 4 := by omega
      have e2 : n % 4 + 1 = (n + 1) % 4 := by omega
      rw [e1, e2, Finset.sum_range_succ]

end Cert.KernelIdeal.HandValue
end
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.KiValue4.lean ====
/-
  The output array of region 4 after the region, over the extended reals: the product of the score matrix and the
  scaled values, from the accumulator's closed form, the regrouping of four sums of 1024 terms, and the cover of the
  array by the four output blocks.
-/
import proofs.«123334_j33835752358180_2_alg».proof.Proof.KiRegion4
import proofs.«123334_j33835752358180_2_alg».proof.Proof.KiValue4Acc
import proofs.«123334_j33835752358180_2_alg».proof.Proof.LibBlockSum
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen
open Cert.KernelIdeal.Hand
variable (V : (c : Dev nD) → (b : Ref sig .tc) → Buf (Elt Ideal) ((c : Thread nD τ).loc b))

/-! # The output array after region 4: the product E·Y of the arrays it was entered with

The output block `(qi, 0)` is written back at the last point of each grid row (`kj = 3`), where the accumulator
holds the four column blocks' sums; the four sums of 1024 terms are one sum over 4096. The four output blocks
tile the array. -/

/-- The product E·Y at the index whose row is r and whose column is q. -/
theorem pv_apply (E : Cert.Spec.A_SS) (Y : Cert.Spec.A_SD) (i : S4096x1024.Idx) (r : Fin 4096) (q : Fin 1024)
    (h0 : (i 0).val = r.val) (h1 : (i 1).val = q.val) :
    Cert.Spec.pv E Y i = ∑ j : Fin 4096, E (ix2 r j) * Y (ix2 j q) := by
  have e : i = ix2 r q := funext fun a => Fin.ext (by match a with | ⟨0, _⟩ => exact h0 | ⟨1, _⟩ => exact h1)
  subst e
  rfl

/-- A sum over 4096 positions taken 1024 consecutive positions at a time. -/
theorem sum_four_blocks (g : Fin 4096 → EReal) :
    ∑ j : Fin 4096, g j = ∑ s ∈ Finset.range 4, ∑ k : Fin 1024, g ⟨(1024 * s + k.val) % 4096, Nat.mod_lt _ (by decide)⟩ := by
  rw [Finset.sum_range]
  refine (Idealize.ShloMosaic.BlockSum.sum_blocks 4 1024 g).trans
    (Finset.sum_congr rfl fun s _ => Finset.sum_congr rfl fun k _ => congrArg g (Fin.ext ?_))
  show 1024 * s.val + k.val = (1024 * s.val + k.val) % 4096
  have hs := s.isLt
  have hk := k.isLt
  omega

/-- What a point with `kj = 3` writes back is its block of the product of the arrays as the region finds them. -/
theorem flushed4_eq (c : Dev nD) (t : Fin cfg4.N) (hf : (cfg4.win 2).flush t = true) :
    (dat4 V c).flushed 2 t = ((cfg4.win 2).blk t).view.read (Elt Ideal) (Cert.Spec.pv (V c main_v4_0) (V c main_v6)) := by
  show (cfg4.win 2).cut (grid4.coords t) ((dat4 V c).after 2 t) = _
  rw [after4_2]
  have h3 : t.val % 4 = 3 := (flush4_2 t).mp hf
  obtain ⟨-, -, -, -, e20, e21⟩ := idx_facts4 t
  have hN : t.val < 16 := lt_of_lt_of_eq t.isLt (show cfg4.N = 16 from N_4)
  funext j
  obtain ⟨p, q, rfl⟩ : ∃ (p q : Fin 1024), j = ix2 p q := ⟨j 0, j 1, eq_ix2 j⟩
  show acc4 V c t.val t.isLt (ix2 p q)
    = Cert.Spec.pv (V c main_v4_0) (V c main_v6) (((cfg4.win 2).blk t).view.emb (ix2 p q))
  have hp : p.val < 1024 := p.isLt
  refine (acc4_apply V c p q t.val t.isLt).trans ?_
  refine Eq.symm ((pv_apply _ _ _ ⟨t.val / 4 * 1024 + p.val, by omega⟩ q ?_ ?_).trans ?_)
  · show win4_2.index t (0 : Fin 2) * 1024 + 1 * p.val = t.val / 4 * 1024 + p.val; omega
  · show win4_2.index t (1 : Fin 2) * 1024 + 1 * q.val = q.val; omega
  · refine (sum_four_blocks _).trans ?_
    rw [h3]
    refine Finset.sum_congr rfl fun s _ => Finset.sum_congr rfl fun k _ => ?_
    unfold eAt yAt
    refine congrArg₂ (· * ·) (congrArg _ (congrArg₂ _ (Fin.ext ?_) rfl)) rfl
    show t.val / 4 * 1024 + p.val = (t.val / 4 * 1024 + p.val) % 4096
    omega

/-- An index of the output array is in point `t`'s block iff each coordinate is in the block's range on its axis. -/
theorem mem_blk4 (t : Fin cfg4.N) (i : S4096x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v7).slice (win4_2.rect t)).set ↔ _
  rw [View.set_slice_whole, Rect.mem_set_unit]
  exact Iff.rfl

/-- Every index of the output array is in the block some point writes back: row r is in the block of the last
    point of grid row r / 1024. -/
theorem coverOut4 (i : S4096x1024.Idx) : ∃ t : Fin cfg4.N, (cfg4.win 2).flush t = true ∧ i ∈ ((cfg4.win 2).blk t).view.set := by
  have hi0 : (i 0).val < 4096 := (i 0).isLt
  have hi1 : (i 1).val < 1024 := (i 1).isLt
  have hn : cfg4.N = 16 := N_4
  obtain ⟨t, ht⟩ : ∃ t : Fin cfg4.N, t.val = 4 * ((i 0).val / 1024) + 3 := ⟨⟨4 * ((i 0).val / 1024) + 3, by omega⟩, rfl⟩
  obtain ⟨-, -, -, -, e20, e21⟩ := idx_facts4 t
  refine ⟨t, (flush4_2 t).mpr (by omega), ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- The output array after the region is the product of the score matrix and the scaled values the region was
    entered with. -/
theorem final4 (c : Dev nD) : ((dat4 (F := Ideal) V c).arrAt 2 cfg4.N) = Cert.Spec.pv (V c main_v4_0) (V c main_v6) :=
  (dat4 V c).arrAt_eq_of_cover 2 (Cert.Spec.pv (V c main_v4_0) (V c main_v6)) (fun t hf => flushed4_eq V c t hf) coverOut4

end Cert.KernelIdeal.HandValue
end
-- ==== Proof.KiValue2Pay.lean ====
import proofs.«123334_j33835752358180_2_alg».proof.Proof.Gen.KernelIdeal.Skeleton
import proofs.«123334_j33835752358180_2_alg».proof.Proof.KiValueLin
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen

/-! # The score kernel's payloads at an index, over the extended reals

On a block of 1024 query rows and a block of 1024 key rows the score payload is exp of the rows' inner products
times the scale: entry (p, q) is exp((Σ_d x(p,d)·y(q,d))·c) — the key block is transposed, then multiplied from a
zero accumulator. The row-sum payload adds to a running column the sums of the score block along its rows. -/

/-- The scale 2⁻¹⁰, as the word the kernel broadcasts. -/
abbrev c₀ : EReal := Ideal.ofBits .f32 0x3A800000#32

/-- The score block at (p, q). -/
theorem score_apply (x y : Vec Ideal S1024x1024 .bf16) (p q : Fin 1024) :
    k2_pay1 (F := Ideal) x y (ix2 p q) = Ideal.exp ((∑ d : Fin 1024, x (ix2 p d) * y (ix2 q d)) * c₀) := by
  unfold k2_pay1
  simp only [shapeCast_self]
  show Ideal.exp (matmul (F := Ideal) D₁ none x (transpose S1024x1024 [1, 0] y transposes_S1024x1024_p1_0_S1024x1024)
      (constant (F := Ideal) S1024x1024 .f32 0x00000000#32) (ix2 p q) * c₀) = _
  rw [matmul_zero_apply]
  refine congrArg (fun s => Ideal.exp (s * c₀)) (Finset.sum_congr rfl fun d _ => congrArg (x (ix2 p d) * ·) ?_)
  exact transpose_apply [1, 0] y _ (ix2 d q) (ix2 q d) (fun b => by match b with | ⟨0, _⟩ => rfl | ⟨1, _⟩ => rfl)

/-- So, when the query block's row p is row i₀ of Q and the key block's row j is row i₁ of K, the score block at
    (p, j) is the score matrix at (i₀, i₁). -/
theorem score_eq (x y : Vec Ideal S1024x1024 .bf16) (Qa Ka : Cert.Spec.A_SD) (p j : Fin 1024) (i : S4096x4096.Idx)
    (hx : ∀ d : Fin 1024, x (ix2 p d) = Qa (ix2 (i 0) d)) (hy : ∀ d : Fin 1024, y (ix2 j d) = Ka (ix2 (i 1) d)) :
    k2_pay1 (F := Ideal) x y (ix2 p j) = Cert.Spec.escore c₀ Qa Ka i := by
  rw [score_apply]
  show _ = Ideal.exp ((∑ d : Fin 1024, Qa (ix2 (i 0) d) * Ka (ix2 (i 1) d)) * c₀)
  simp only [hx, hy]

/-- The sum along the rows of a 1024×1024 block, at row p. -/
theorem lanesum_apply (src : FVec Ideal S1024x1024 .f32) (hφ : FKind.Formats .f32)
    (hacc : (0x00000000#32 : BitVec FTy.f32.bits) = FKind.add.neutral .f32 hφ) (p : Fin 1024) :
    multiReduction (F := Ideal) .add [1] S1024 src 0x00000000#32 reduces_S1024x1024_S1024 hφ hacc (ix1 p)
      = ∑ j : Fin 1024, src (ix2 p j) := by
  refine (Ideal.multiReduction_add_single src 0x00000000#32 reduces_S1024x1024_S1024 hφ hacc (ix1 p)).trans ?_
  refine Finset.sum_congr rfl fun j _ => congrArg src (funext fun a => ?_)
  match a with
  | ⟨0, _⟩ => rfl
  | ⟨1, _⟩ => rfl

/-- The row-sum payload at row p: the running column there plus the score block's sum along row p. -/
theorem rowacc_apply (x y : Vec Ideal S1024x1024 .bf16) (prev : Vec Ideal S1024x1 .f32) (p : Fin 1024) :
    k2_pay4 (F := Ideal) x y prev (ix2 p 0) = prev (ix2 p 0) + ∑ j : Fin 1024, k2_pay1 (F := Ideal) x y (ix2 p j) := by
  unfold k2_pay4
  simp only [shapeCast_self]
  rw [addf_apply]
  refine congrArg (prev (ix2 p 0) + ·) ?_
  refine (shapeCast_apply _ shapeCasts_S1024_S1024x1 (ix2 p 0) (ix1 p) ?_).trans (lanesum_apply _ _ _ p)
  rw [Shape.rowMajor_val_one, Shape.rowMajor_val_two]
  show p.val = p.val * 1 + 0
  omega

/-- The zeroed column is zero. -/
theorem zerocol_apply (j : S1024x1.Idx) : k2_pay3 (F := Ideal) j = 0 := Ideal.ofBits_zero_f32

end Cert.KernelIdeal.HandValue

end
-- ==== Proof.KiValue2.lean ====
import proofs.«123334_j33835752358180_2_alg».proof.Proof.KiRegion2
import proofs.«123334_j33835752358180_2_alg».proof.Proof.KiValue2Pay
import proofs.«123334_j33835752358180_2_alg».proof.Proof.LibBlockSum
import proofs.«123334_j33835752358180_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HandValue
open Idealize.ShloMosaic Idealize.ShloMosaic.TcCoe Idealize.ShloMosaic.ValueIdx
open Idealize.SL.Sem
open Idealize.ShloMosaic.Pipeline (Dat)
open Cert.KernelIdeal Cert.KernelIdeal.Gen
open Cert.KernelIdeal.Hand
variable (V : (c : Dev nD) → (b : Ref sig .tc) → Buf (Elt Ideal) ((c : Thread nD τ).loc b))

/-! # Region 2's output arrays after the region: the score matrix and its row sums

The grid is 4 × 4; point t has query block t / 4 and key block t % 4. It loads rows 1024·(t/4) … of Q and rows
1024·(t%4) … of K and writes back block (t/4, t%4) of the score matrix e(i,j) = exp((Q_i · K_j)·c); the sixteen
blocks tile the matrix. The row sums' block t / 4 is zeroed at key block 0, gains at each point the sums along the
rows of that point's score block, and is written back after key block 3, when it holds the four blocks' sums — the
sum over all 4096 columns, taken 1024 at a time. -/

theorem hz2 : (![0, 0] : Fin 2 → Nat) = fun _ => 0 := funext fun a => by fin_cases a <;> rfl

/-- The block index maps over the grid. -/
theorem idx_facts2 : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4
    ∧ win2_3.index t (0 : Fin 2) = t.val / 4 ∧ win2_3.index t (1 : Fin 2) = 0 :=
  (by decide +kernel : ∀ t : Fin grid2.N, _)

/-- The score block of point `t` at (p, j) is the score matrix at row 1024·(t/4) + p, column 1024·(t%4) + j. -/
theorem score_block (c : Dev nD) (t : Fin cfg2.N) (p j : Fin 1024) (i : S4096x4096.Idx)
    (h0 : (i 0).val = t.val / 4 * 1024 + p.val) (h1 : (i 1).val = t.val % 4 * 1024 + j.val) :
    k2_pay1 (F := Ideal) (iblk2 V c 0 t) (iblk2 V c 1 t) (ix2 p j) = (Cert.Spec.escore c₀ (V c main_v1) (V c main_v3)) i := by
  obtain ⟨e00, e01, e10, e11, -, -, -, -⟩ := idx_facts2 t
  refine score_eq _ _ (V c main_v1) (V c main_v3) p j i (fun d => ?_) (fun d => ?_)
  · show V c main_v1 (((cfg2.win 0).blk t).view.emb (ix2 p d)) = V c main_v1 _
    refine congrArg _ (funext fun a => Fin.ext ?_)
    match a with
    | ⟨0, _⟩ => show win2_0.index t (0 : Fin 2) * 1024 + 1 * p.val = (i 0).val; omega
    | ⟨1, _⟩ => show win2_0.index t (1 : Fin 2) * 1024 + 1 * d.val = d.val; omega
  · show V c main_v3 (((cfg2.win 1).blk t).view.emb (ix2 j d)) = V c main_v3 _
    refine congrArg _ (funext fun a => Fin.ext ?_)
    match a with
    | ⟨0, _⟩ => show win2_1.index t (0 : Fin 2) * 1024 + 1 * j.val = (i 1).val; omega
    | ⟨1, _⟩ => show win2_1.index t (1 : Fin 2) * 1024 + 1 * d.val = d.val; omega

/-! ## The score matrix -/

/-- What point `t` writes back to the score matrix is block `t` of it. -/
theorem flushed2e_eq (c : Dev nD) (t : Fin cfg2.N) :
    (dat2 V c).flushed 2 t = ((cfg2.win 2).blk t).view.read (Elt Ideal) (Cert.Spec.escore c₀ (V c main_v1) (V c main_v3)) := by
  show (cfg2.win 2).cut (grid2.coords t) ((dat2 V c).after 2 t) = _
  rw [after2_2]
  unfold out2_2
  rw [View.canon_unit_zero hz2]
  simp only [View.ld_unit_zero (S := S1024x1024) hz2]
  obtain ⟨-, -, -, -, e20, e21, -, -⟩ := idx_facts2 t
  funext j
  obtain ⟨p, q, rfl⟩ : ∃ (p q : Fin 1024), j = ix2 p q := ⟨j 0, j 1, eq_ix2 j⟩
  show k2_pay1 (F := Ideal) (iblk2 V c 0 t) (iblk2 V c 1 t) (ix2 p q) = (Cert.Spec.escore c₀ (V c main_v1) (V c main_v3)) (((cfg2.win 2).blk t).view.emb (ix2 p q))
  refine score_block V c t p q _ ?_ ?_
  · show win2_2.index t (0 : Fin 2) * 1024 + 1 * p.val = _; omega
  · show win2_2.index t (1 : Fin 2) * 1024 + 1 * q.val = _; omega

/-- An index of the score matrix is in point `t`'s block iff each coordinate is in the block's range on its axis. -/
theorem mem_blk2e (t : Fin cfg2.N) (i : S4096x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v4_0).slice (win2_2.rect t)).set ↔ _
  rw [View.set_slice_whole, Rect.mem_set_unit]
  exact Iff.rfl

/-- Every index of the score matrix is in some point's block: (r, s) is in the block of point 4·(r/1024) + s/1024. -/
theorem cover2e (i : S4096x4096.Idx) : ∃ t : Fin cfg2.N, (cfg2.win 2).flush t = true ∧ i ∈ ((cfg2.win 2).blk t).view.set := by
  have hi0 : (i 0).val < 4096 := (i 0).isLt
  have hi1 : (i 1).val < 4096 := (i 1).isLt
  have hn : cfg2.N = 16 := N_2
  obtain ⟨t, ht⟩ : ∃ t : Fin cfg2.N, t.val = (i 0).val / 1024 * 4 + (i 1).val / 1024 := ⟨⟨(i 0).val / 1024 * 4 + (i 1).val / 1024, by omega⟩, rfl⟩
  obtain ⟨-, -, -, -, e20, e21, -, -⟩ := idx_facts2 t
  refine ⟨t, flush2_2 t, ?_⟩
  rw [mem_blk2e]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The score matrix after the region. -/
theorem final2_e (c : Dev nD) : ((dat2 (F := Ideal) V c).arrAt 2 cfg2.N)
    = Cert.Spec.escore (Ideal.ofBits .f32 0x3A800000#32) (V c main_v1) (V c main_v3) :=
  (dat2 V c).arrAt_eq_of_cover 2 (Cert.Spec.escore c₀ (V c main_v1) (V c main_v3)) (fun t _ => flushed2e_eq V c t) cover2e

/-! ## The row sums -/

/-- One step of the accumulation at row p: the running column there plus the sum along row p of the score block. -/
theorem out2_3_apply (x y : Vec Ideal S1024x1024 .bf16) (prev : Vec Ideal S1024x1 .f32) (p : Fin 1024) :
    out2_3 (F := Ideal) x y prev (ix2 p 0) = prev (ix2 p 0) + ∑ j : Fin 1024, k2_pay1 (F := Ideal) x y (ix2 p j) := by
  unfold out2_3
  rw [View.canon_unit_zero hz2]
  simp only [View.ld_unit_zero (S := S1024x1024) hz2, View.ld_unit_zero (S := S1024x1) hz2]
  exact rowacc_apply x y prev p

/-- The zeroed column is zero. -/
theorem zero2_3_apply (j : S1024x1.Idx) : zero2_3 (F := Ideal) j = 0 := by
  unfold zero2_3
  rw [View.canon_unit_zero hz2]
  exact zerocol_apply j

/-- At a point with key block 3 the running column at row p holds the sum over all 4096 columns of the score
    matrix's row 1024·(t/4) + p: the four points of the row each added the sum over their 1024 columns. -/
theorem rowsums_closed (c : Dev nD) (t : Fin cfg2.N) (h3 : t.val % 4 = 3) (p : Fin 1024) (r : Fin 4096)
    (hr : r.val = t.val / 4 * 1024 + p.val) :
    acc2 (F := Ideal) V c t.val t.isLt (ix2 p 0) = ∑ k : Fin 4096, (Cert.Spec.escore c₀ (V c main_v1) (V c main_v3)) (ix2 r k) := by
  have hn : cfg2.N = 16 := N_2
  have ht : t.val < 16 := by have := t.isLt; omega
  -- the three points before it in the row
  obtain ⟨t2, ht2⟩ : ∃ u : Fin cfg2.N, u.val = t.val - 1 := ⟨⟨t.val - 1, by omega⟩, rfl⟩
  obtain ⟨t1, ht1⟩ : ∃ u : Fin cfg2.N, u.val = t.val - 2 := ⟨⟨t.val - 2, by omega⟩, rfl⟩
  obtain ⟨t0, ht0⟩ : ∃ u : Fin cfg2.N, u.val = t.val - 3 := ⟨⟨t.val - 3, by omega⟩, rfl⟩
  have a3 : acc2 (F := Ideal) V c t.val t.isLt (ix2 p 0)
      = acc2 (F := Ideal) V c t2.val t2.isLt (ix2 p 0) + ∑ j : Fin 1024, k2_pay1 (F := Ideal) (iblk2 V c 0 t) (iblk2 V c 1 t) (ix2 p j) := by
    rw [acc2_B V c t (by omega), out2_3_apply]
    congr 2; exact ht2.symm
  have a2 : acc2 (F := Ideal) V c t2.val t2.isLt (ix2 p 0)
      = acc2 (F := Ideal) V c t1.val t1.isLt (ix2 p 0) + ∑ j : Fin 1024, k2_pay1 (F := Ideal) (iblk2 V c 0 t2) (iblk2 V c 1 t2) (ix2 p j) := by
    rw [acc2_B V c t2 (by omega), out2_3_apply]
    congr 2; omega
  have a1 : acc2 (F := Ideal) V c t1.val t1.isLt (ix2 p 0)
      = acc2 (F := Ideal) V c t0.val t0.isLt (ix2 p 0) + ∑ j : Fin 1024, k2_pay1 (F := Ideal) (iblk2 V c 0 t1) (iblk2 V c 1 t1) (ix2 p j) := by
    rw [acc2_B V c t1 (by omega), out2_3_apply]
    congr 2; omega
  have a0 : acc2 (F := Ideal) V c t0.val t0.isLt (ix2 p 0)
      = ∑ j : Fin 1024, k2_pay1 (F := Ideal) (iblk2 V c 0 t0) (iblk2 V c 1 t0) (ix2 p j) := by
    rw [acc2_A V c t0 (by omega), out2_3_apply, zero2_3_apply, zero_add]
  rw [a3, a2, a1, a0]
  refine Eq.symm ((BlockSum.sum_blocks 4 1024 fun k => (Cert.Spec.escore c₀ (V c main_v1) (V c main_v3)) (ix2 r k)).trans ?_)
  rw [Fin.sum_univ_four]
  refine congrArg₂ (· + ·) (congrArg₂ (· + ·) (congrArg₂ (· + ·) ?_ ?_) ?_) ?_
  · exact Finset.sum_congr rfl fun j _ => (score_block V c t0 p j _ (by show r.val = _; omega) (by show 1024 * (0 : Fin 4).val + j.val = _; rw [ht0]; show 1024 * 0 + j.val = _; omega)).symm
  · exact Finset.sum_congr rfl fun j _ => (score_block V c t1 p j _ (by show r.val = _; omega) (by show 1024 * (1 : Fin 4).val + j.val = _; rw [ht1]; show 1024 * 1 + j.val = _; omega)).symm
  · exact Finset.sum_congr rfl fun j _ => (score_block V c t2 p j _ (by show r.val = _; omega) (by show 1024 * (2 : Fin 4).val + j.val = _; rw [ht2]; show 1024 * 2 + j.val = _; omega)).symm
  · exact Finset.sum_congr rfl fun j _ => (score_block V c t p j _ (by show r.val = _; omega) (by show 1024 * (3 : Fin 4).val + j.val = _; show 1024 * 3 + j.val = _; omega)).symm

/-- What a point with key block 3 writes back to the row sums is block t / 4 of the score matrix's row sums. -/
theorem flushed2d_eq (c : Dev nD) (t : Fin cfg2.N) (h3 : t.val % 4 = 3) :
    (dat2 V c).flushed 3 t = ((cfg2.win 3).blk t).view.read (Elt Ideal) (Cert.Spec.rowsum (Cert.Spec.escore c₀ (V c main_v1) (V c main_v3))) := by
  show (cfg2.win 3).cut (grid2.coords t) ((dat2 V c).after 3 t) = _
  rw [after2_3]
  obtain ⟨-, -, -, -, -, -, e30, e31⟩ := idx_facts2 t
  have hn : cfg2.N = 16 := N_2
  have ht : t.val < 16 := by have := t.isLt; omega
  funext j
  obtain ⟨p, z, rfl⟩ : ∃ (p : Fin 1024) (z : Fin 1), j = ix2 p z := ⟨j 0, j 1, eq_ix2 j⟩
  obtain rfl : z = 0 := Subsingleton.elim _ _
  have hp : p.val < 1024 := p.isLt
  show acc2 (F := Ideal) V c t.val t.isLt (ix2 p 0)
    = ∑ k : Fin 4096, (Cert.Spec.escore c₀ (V c main_v1) (V c main_v3)) (ix2 ((((cfg2.win 3).blk t).view.emb (ix2 p 0)) 0) k)
  exact rowsums_closed V c t h3 p _ (by show win2_3.index t (0 : Fin 2) * 1024 + 1 * p.val = _; omega)

/-- An index of the row sums is in point `t`'s block iff each coordinate is in the block's range on its axis. -/
theorem mem_blk2d (t : Fin cfg2.N) (i : S4096x1.Idx) :
    i ∈ ((cfg2.win 3).blk t).view.set ↔ ∀ a : Fin 2, win2_3.index t a * S1024x1.size a ≤ (i a).val ∧ (i a).val < win2_3.index t a * S1024x1.size a + S1024x1.size a := by
  show i ∈ ((View.whole main_v4_1).slice (win2_3.rect t)).set ↔ _
  rw [View.set_slice_whole, Rect.mem_set_unit]
  exact Iff.rfl

/-- Every index of the row sums is in the block some point with key block 3 writes back: row r is in the block of
    point 4·(r/1024) + 3. -/
theorem cover2d (i : S4096x1.Idx) : ∃ t : Fin cfg2.N, (cfg2.win 3).flush t = true ∧ i ∈ ((cfg2.win 3).blk t).view.set := by
  have hi0 : (i 0).val < 4096 := (i 0).isLt
  have hi1 : (i 1).val < 1 := (i 1).isLt
  have hn : cfg2.N = 16 := N_2
  obtain ⟨t, ht⟩ : ∃ t : Fin cfg2.N, t.val = (i 0).val / 1024 * 4 + 3 := ⟨⟨(i 0).val / 1024 * 4 + 3, by omega⟩, rfl⟩
  obtain ⟨-, -, -, -, -, -, e30, e31⟩ := idx_facts2 t
  refine ⟨t, (flush2_3 t).mpr (by omega), ?_⟩
  rw [mem_blk2d]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1 ≤ (i 1).val ∧ (i 1).val < win2_3.index t (1 : Fin 2) * 1 + 1; omega

/-- The row sums after the region. -/
theorem final2_d (c : Dev nD) : ((dat2 (F := Ideal) V c).arrAt 3 cfg2.N)
    = Cert.Spec.rowsum (Cert.Spec.escore (Ideal.ofBits .f32 0x3A800000#32) (V c main_v1) (V c main_v3)) :=
  (dat2 V c).arrAt_eq_of_cover 3 (Cert.Spec.rowsum (Cert.Spec.escore c₀ (V c main_v1) (V c main_v3))) (fun t hf => flushed2d_eq V c t ((flush2_3 t).mp hf)) cover2d

end Cert.KernelIdeal.HandValue

end
-- ==== Proof.Bridge.lean ====
/-
  The law that joins the two arrangements of the attention head.
  The kernel computes  Σ_j e(i,j) · (Y(j,d) / den(j)),  den(j) = Σ_k e(j,k);
  the reference computes  Σ_j (e(i,j) / (0 + Σ_k e(j,k))) · Y(j,d).
  A quotient x / y of extended reals is x · y⁻¹ as soon as y ≠ 0, so the two summands agree by commutativity and
  associativity of the product once every row sum is nonzero — which holds when the scores are real numbers: e is then
  the exponential of a real, a positive real, and a finite sum of positive reals is a positive real.
  The reference divides the scores by 1024 where the kernel multiplies by 2⁻¹⁰: the same extended real.
-/
import proofs.«123334_j33835752358180_2_alg».proof.Proof.Spec
import Mathlib.Data.EReal.Basic
import Mathlib.Data.EReal.Operations
import Mathlib.Data.EReal.Inv
import Mathlib.Analysis.SpecialFunctions.Exp

noncomputable section

namespace Cert.Spec

open Idealize.ShloMosaic Idealize.ShloMosaic.ValueIdx

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, EReal.coe_zero.symm⟩

theorem IsReal.sum {ι : Type} (s : Finset ι) (f : ι → EReal) (h : ∀ k ∈ s, IsReal (f k)) : IsReal (∑ k ∈ s, f k) := by
  classical
  induction s using Finset.induction_on with
  | empty => simpa using IsReal.zero
  | insert a s ha ih =>
    rw [Finset.sum_insert ha]
    exact (h a (Finset.mem_insert_self a s)).add (ih fun k hk => h k (Finset.mem_insert_of_mem hk))

/-- The coercion of a finite real sum is the sum of the coercions. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A projection of real arrays is real. -/
theorem lin_real {x : A_SD} {W : A_DD} {b : A_1D} (hx : ∀ i, IsReal (x i)) (hW : ∀ i, IsReal (W i)) (hb : ∀ i, IsReal (b i)) :
    ∀ i, IsReal (lin x W b i) := fun i =>
  (IsReal.sum _ _ fun k _ => (hx _).mul (hW _)).add (hb _)

/-- A score of real projections under a real scale is the exponential of a real: a positive real. -/
theorem escore_pos {c : EReal} {Q K : A_SD} (hc : IsReal c) (hQ : ∀ i, IsReal (Q i)) (hK : ∀ i, IsReal (K i)) (i : (⟨2, ![4096, 4096]⟩ : Shape).Idx) :
    ∃ r : ℝ, 0 < r ∧ escore c Q K i = (r : EReal) := by
  obtain ⟨s, hs⟩ := (IsReal.sum Finset.univ (fun d : Fin 1024 => Q (ix2 (n0 := 4096) (n1 := 1024) (i 0) d) * K (ix2 (n0 := 4096) (n1 := 1024) (i 1) d))
    fun d _ => (hQ _).mul (hK _)).mul hc
  refine ⟨Real.exp s, Real.exp_pos s, ?_⟩
  unfold escore
  rw [hs]; rfl

/-- Every row sum of such a score matrix is nonzero. -/
theorem rowsum_ne_zero {E : A_SS} (hE : ∀ i, ∃ r : ℝ, 0 < r ∧ E i = (r : EReal)) (j : Fin 4096) :
    (∑ k : Fin 4096, E (ix2 (n0 := 4096) (n1 := 4096) j k)) ≠ 0 := by
  choose g hg using hE
  have h : (∑ k : Fin 4096, E (ix2 (n0 := 4096) (n1 := 4096) j k)) = ((∑ k : Fin 4096, g (ix2 (n0 := 4096) (n1 := 4096) j k) : ℝ) : EReal) := by
    rw [coe_sum]; exact Finset.sum_congr rfl fun k _ => (hg _).2
  rw [h]
  have hpos : 0 < ∑ k : Fin 4096, g (ix2 (n0 := 4096) (n1 := 4096) j k) :=
    Finset.sum_pos (fun k _ => (hg _).1) ⟨⟨0, by decide⟩, Finset.mem_univ _⟩
  exact_mod_cast hpos.ne'

/-- The reference's arrangement: each score divided by its column's row sum (taken from `z`), then the product with `Y`. -/
def pvRef (z : EReal) (E : A_SS) (Y : A_SD) : A_SD := fun i =>
  ∑ j : Fin 4096, Ideal.div (E (ix2 (n0 := 4096) (n1 := 4096) (i 0) j)) (z + ∑ k : Fin 4096, E (ix2 (n0 := 4096) (n1 := 4096) j k))
    * Y (ix2 (n0 := 4096) (n1 := 1024) j (i 1))

/-- With nonzero row sums the kernel's arrangement (the values divided first) is the reference's (the scores divided first). -/
theorem pv_scaled_eq_pvRef (E : A_SS) (Y : A_SD) (hs : ∀ j : Fin 4096, (∑ k : Fin 4096, E (ix2 (n0 := 4096) (n1 := 4096) j k)) ≠ 0) :
    pv E (scaled Y (rowsum E)) = pvRef 0 E Y := by
  funext i
  unfold pv pvRef scaled rowsum
  refine Finset.sum_congr rfl fun j _ => ?_
  rw [zero_add]
  have hj := hs j
  show E _ * Ideal.div (Y _) (∑ k : Fin 4096, E (ix2 (n0 := 4096) (n1 := 4096) j k)) = _
  unfold Ideal.div
  rw [if_neg hj, if_neg hj, mul_comm (Y _), ← mul_assoc]

/-- The reference's score matrix: the scores divided by `n` before the exponential. -/
def escoreRef (n : EReal) (Q K : A_SD) : A_SS := fun i =>
  Ideal.exp (Ideal.div (∑ d : Fin 1024, Q (ix2 (n0 := 4096) (n1 := 1024) (i 0) d) * K (ix2 (n0 := 4096) (n1 := 1024) (i 1) d)) n)

/-- Dividing by 1024 is multiplying by 1/1024, on every extended real. -/
theorem escoreRef_eq (Q K : A_SD) : escoreRef ((1024 : ℝ) : EReal) Q K = escore (((1 / 1024 : ℝ)) : EReal) Q K := by
  funext i
  unfold escoreRef escore
  rw [Ideal.div_coe (by norm_num : (1024 : ℝ) ≠ 0)]

/-- The float word 0x44800000 is 1024 and the word 0x3A800000 is 1/1024. -/
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num

end Cert.Spec

end
-- ==== Proof.RefG.lean ====
/-
  The reference read as functions of whole arrays: each projection is x·W + b with the bias a vector laid along the
  columns, the scores are divided by 1024 and exponentiated, each score is divided by the row sum of ITS COLUMN's
  index (the row sums, a vector, are laid along the columns), and the result is the product with the value projection.
-/
import proofs.«123334_j33835752358180_2_alg».proof.Proof.Gen.ReferenceIdeal.Read
import proofs.«123334_j33835752358180_2_alg».proof.Proof.Bridge

noncomputable section

namespace Cert.Spec

open Idealize.ShloMosaic Idealize.ShloMosaic.ValueIdx
open Cert.ReferenceIdeal Cert.ReferenceIdeal.Read

/-- A length-1024 vector laid out as a 1×1024 row. -/
def row (b : (⟨1, ![1024]⟩ : Shape).Idx → EReal) : A_1D := fun j => b (ix1 (n := 1024) (j 1))

theorem proj_eq (x : A_SD) (W : A_DD) (b : (⟨1, ![1024]⟩ : Shape).Idx → EReal) :
    val_main_v3 (F := Ideal) x W b = lin x W (row b) := by
  funext i
  rw [val_main_v3_apply, val_main_v0_apply, val_main_v2_apply, val_main_v1_apply]
  unfold lin row
  simp only [Ideal.addf_def]
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The three projections are the same program text at three triples of arguments. -/
theorem projK_eq (x : A_SD) (W : A_DD) (b : (⟨1, ![1024]⟩ : Shape).Idx → EReal) :
    val_main_v7 (F := Ideal) x W b = lin x W (row b) := by
  funext i
  rw [val_main_v7_apply, val_main_v4_apply, val_main_v6_apply, val_main_v5_apply]
  unfold lin row
  simp only [Ideal.addf_def]
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

theorem projV_eq (x : A_SD) (W : A_DD) (b : (⟨1, ![1024]⟩ : Shape).Idx → EReal) :
    val_main_v11 (F := Ideal) x W b = lin x W (row b) := by
  funext i
  rw [val_main_v11_apply, val_main_v8_apply, val_main_v10_apply, val_main_v9_apply]
  unfold lin row
  simp only [Ideal.addf_def]
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The exponentiated scaled scores: entry (i, j) from row i of the first projection and row j of the second (the
    second enters transposed). -/
theorem scores_eq (x0 x1 : A_SD) (x3 x5 : A_DD) (x4 x6 : (⟨1, ![1024]⟩ : Shape).Idx → EReal) :
    val_main_v16 (F := Ideal) x0 x1 x3 x4 x5 x6
      = escoreRef (Ideal.ofBits .f32 0x44800000#32) (val_main_v3 (F := Ideal) x0 x3 x4) (val_main_v7 (F := Ideal) x1 x5 x6) := by
  funext i
  rw [val_main_v16_apply, val_main_v15_apply, val_main_v13_apply, val_main_v14_apply, val_main_cst_apply]
  unfold escoreRef
  simp only [Ideal.hostUnary_exp_def, Ideal.hostDivf_def, val_main_v12_apply]
  refine congrArg Ideal.exp (congrArg (Ideal.div · _) (Finset.sum_congr rfl fun k _ => congrArg₂ (· * ·) (congrArg _ ?_) (congrArg _ ?_)))
  · exact funext fun a => Fin.ext (by match a with | ⟨0, _⟩ => rfl | ⟨1, _⟩ => rfl)
  · exact funext fun a => Fin.ext (by match a with | ⟨0, _⟩ => rfl | ⟨1, _⟩ => rfl)

/-- The result: each score over the row sum of its column's index, times the value projection. -/
theorem result_eq (x0 x1 x2 : A_SD) (x3 x5 x7 : A_DD) (x4 x6 x8 : (⟨1, ![1024]⟩ : Shape).Idx → EReal) :
    val_main_v21 (F := Ideal) x0 x1 x2 x3 x4 x5 x6 x7 x8
      = pvRef (Ideal.ofBits .f32 0x00000000#32) (val_main_v16 (F := Ideal) x0 x1 x3 x4 x5 x6) (val_main_v11 (F := Ideal) x2 x7 x8) := by
  funext i
  rw [val_main_v21_apply]
  unfold pvRef
  refine Finset.sum_congr rfl fun k _ => congrArg₂ (· * ·) ?_ (congrArg _ ?_)
  · rw [val_main_v20_apply, val_main_v19_apply, val_main_v18_apply, val_main_v17_apply, val_main_cst_0_apply]
    simp only [Ideal.hostDivf_def]
    refine congrArg₂ Ideal.div (congrArg _ ?_) (congrArg (_ + ·) (Finset.sum_congr rfl fun k' _ => congrArg _ ?_))
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl | ⟨1, _⟩ => rfl)

/-- The reference's result as one function of its nine arguments. -/
def refOut (x0 x1 x2 : A_SD) (x3 x5 x7 : A_DD) (x4 x6 x8 : (⟨1, ![1024]⟩ : Shape).Idx → EReal) : A_SD :=
  pvRef 0 (escoreRef ((1024 : ℝ) : EReal) (lin x0 x3 (row x4)) (lin x1 x5 (row x6))) (lin x2 x7 (row x8))

theorem ref_eq (x0 x1 x2 : A_SD) (x3 x5 x7 : A_DD) (x4 x6 x8 : (⟨1, ![1024]⟩ : Shape).Idx → EReal) :
    val_main_v21 (F := Ideal) x0 x1 x2 x3 x4 x5 x6 x7 x8 = refOut x0 x1 x2 x3 x5 x7 x4 x6 x8 := by
  rw [result_eq, scores_eq, proj_eq, projK_eq, projV_eq, ofBits_1024, Ideal.ofBits_zero_f32]
  rfl

/-- With real entries in the arguments the scores read, the reference's result is the kernel's arrangement: the scale
    2⁻¹⁰ for the division by 1024, and the values divided by the row sums in place of the scores. -/
theorem refOut_eq_kernel (x0 x1 x2 : A_SD) (x3 x5 x7 : A_DD) (x4 x6 x8 : (⟨1, ![1024]⟩ : Shape).Idx → EReal)
    (h0 : ∀ i, IsReal (x0 i)) (h1 : ∀ i, IsReal (x1 i)) (h3 : ∀ i, IsReal (x3 i)) (h4 : ∀ i, IsReal (x4 i))
    (h5 : ∀ i, IsReal (x5 i)) (h6 : ∀ i, IsReal (x6 i)) :
    refOut x0 x1 x2 x3 x5 x7 x4 x6 x8
      = pv (escore (Ideal.ofBits .f32 0x3A800000#32) (lin x0 x3 (row x4)) (lin x1 x5 (row x6)))
          (scaled (lin x2 x7 (row x8)) (rowsum (escore (Ideal.ofBits .f32 0x3A800000#32) (lin x0 x3 (row x4)) (lin x1 x5 (row x6))))) := by
  unfold refOut
  rw [escoreRef_eq, ← ofBits_inv1024]
  exact (pv_scaled_eq_pvRef _ _ (rowsum_ne_zero (fun i => escore_pos ⟨_, ofBits_inv1024⟩
    (lin_real h0 h3 (fun j => h4 _)) (lin_real h1 h5 (fun j => h6 _)) i))).symm

end Cert.Spec

end
-- ==== Proof.KiValue.lean ====
/-
  The kernel program's result as one function of its nine arguments: through the eight items each buffer a later
  item reads is either an argument, still as launched, or an earlier region's output, which is that region's function of
  what it read.  Composed: Q = x_q·W_q + b_q, K = x_k·W_k + b_k, e = exp((Q Kᵀ)·2⁻¹⁰), den = the row sums of e,
  V' = (x_v·W_v + b_v) with row j divided by den(j), and the result e·V'.
-/
import proofs.«123334_j33835752358180_2_alg».proof.Proof.Gen.KernelIdeal.Launch
import proofs.«123334_j33835752358180_2_alg».proof.Proof.Gen.KernelIdeal.Skeleton
import proofs.«123334_j33835752358180_2_alg».proof.Proof.Gen.KernelIdeal.Points
import proofs.«123334_j33835752358180_2_alg».proof.Proof.KiFrame
import proofs.«123334_j33835752358180_2_alg».proof.Proof.KiValue0
import proofs.«123334_j33835752358180_2_alg».proof.Proof.KiValue1
import proofs.«123334_j33835752358180_2_alg».proof.Proof.KiValue3
import proofs.«123334_j33835752358180_2_alg».proof.Proof.KiValue4
import proofs.«123334_j33835752358180_2_alg».proof.Proof.KiValue2
import proofs.«123334_j33835752358180_2_alg».proof.Proof.RefG
import Idealize.ShloMosaic.Lib.ValueLayout
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Hand Cert.Spec Idealize.ShloMosaic.ValueIdx

variable (m : (ℓ : Loc nD τ sig) → Buf (Elt Ideal) ℓ) (ρ : Dev nD → PrngReg)

/-! ## A bias vector reshaped to a 1×1024 row -/

theorem reshape_row (x : (⟨1, ![1024]⟩ : Shape).Idx → EReal) (h : (⟨1, ![1024]⟩ : Shape).ShapeCasts ⟨2, ![1, 1024]⟩) :
    (shapeCast ⟨2, ![1, 1024]⟩ x h : A_1D) = row x := by
  funext j
  obtain ⟨u, i, rfl⟩ : ∃ (u : Fin 1) (i : Fin 1024), j = ix2 u i := ⟨j 0, j 1, eq_ix2 j⟩
  exact shapeCast_a_1a_apply x h u i

theorem W1_v0 (c : Dev nD) : (W1 m ρ c (Proc.devRef .tc main_v0) : A_1D) = row (m ((c : Thread nD τ).loc main_arg4)) := by
  have e : (W1 m ρ c (Proc.devRef .tc main_v0) : A_1D) = shapeCast ⟨2, ![1, 1024]⟩ (W0 m ρ c (Proc.devRef .tc main_arg4)) shapeCasts_S1024_S1x1024 := by
    dsimp only [W1, hostOps0]; after_results; rfl
  rw [e, reshape_row]

/-! ## The arguments, as the regions that read them find them -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))
    _ = m ((c : Thread nD τ).loc main_arg3) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          exact StableHlo.devRef_ne_of_ne (by decide)))
    _ = m ((c : Thread nD τ).loc main_arg6) := rfl

theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.Forall, StableHlo.reshape_writes, Finset.mem_singleton]
          exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))
    _ = m ((c : Thread nD τ).loc main_arg2) := rfl

theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := StableHlo.after_of_forall_not_mem (b := Proc.devRef .tc main_arg7) _ _ (List.forall_iff_forall_mem.mp (by
          simp only [hostOps3, List.Forall, StableHlo.reshape_writes, Finset.mem_singleton]
          exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.reshape_writes, Finset.mem_singleton]
          exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          exact StableHlo.devRef_ne_of_ne (by decide)))
    _ = m ((c : Thread nD τ).loc main_arg7) := rfl

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.reshape_writes, Finset.mem_singleton]
          exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.reshape_writes, Finset.mem_singleton]
          exact StableHlo.devRef_ne_of_ne (by decide)))
    _ = m ((c : Thread nD τ).loc main_arg8) := rfl

theorem W3_v2 (c : Dev nD) : (W3 m ρ c (Proc.devRef .tc main_v2) : A_1D) = row (m ((c : Thread nD τ).loc main_arg6)) := by
  have e : (W3 m ρ c (Proc.devRef .tc main_v2) : A_1D) = shapeCast ⟨2, ![1, 1024]⟩ (W2 m ρ c (Proc.devRef .tc main_arg6)) shapeCasts_S1024_S1x1024 := by
    dsimp only [W3, hostOps1]; after_results; rfl
  rw [e, reshape_row, W2_arg6]

theorem W6_v5 (c : Dev nD) : (W6 m ρ c (Proc.devRef .tc main_v5) : A_1D) = row (m ((c : Thread nD τ).loc main_arg8)) := by
  have e : (W6 m ρ c (Proc.devRef .tc main_v5) : A_1D) = shapeCast ⟨2, ![1, 1024]⟩ (W5 m ρ c (Proc.devRef .tc main_arg8)) shapeCasts_S1024_S1x1024 := by
    dsimp only [W6, hostOps3]; after_results; rfl
  rw [e, reshape_row, W5_arg8]

/-! ## The regions' outputs, as the regions that read them find them -/

/-- The two projections feeding the scores. -/
def Qm (c : Dev nD) : A_SD := lin (m ((c : Thread nD τ).loc main_arg0)) (m ((c : Thread nD τ).loc main_arg3)) (row (m ((c : Thread nD τ).loc main_arg4)))
def Km (c : Dev nD) : A_SD := lin (m ((c : Thread nD τ).loc main_arg1)) (m ((c : Thread nD τ).loc main_arg5)) (row (m ((c : Thread nD τ).loc main_arg6)))
def Vm (c : Dev nD) : A_SD := lin (m ((c : Thread nD τ).loc main_arg2)) (m ((c : Thread nD τ).loc main_arg7)) (row (m ((c : Thread nD τ).loc main_arg8)))
def Em (c : Dev nD) : A_SS := escore (Ideal.ofBits .f32 0x3A800000#32) (Qm m c) (Km m c)

theorem W2_v1 (c : Dev nD) : (W2 m ρ c (Proc.devRef .tc main_v1) : A_SD) = Qm m c := by
  rw [show W2 m ρ c (Proc.devRef .tc main_v1) = (dat0 (V1 m ρ) c).arrAt 3 cfg0.N from W2_arr m ρ c 3, final0]
  unfold Qm
  rw [show V1 m ρ c main_arg0 = _ from W1_arg0 m ρ c, show V1 m ρ c main_arg3 = _ from W1_arg3 m ρ c, show V1 m ρ c main_v0 = _ from W1_v0 m ρ c]

theorem W4_v1 (c : Dev nD) : W4 m ρ c (Proc.devRef .tc main_v1) = Qm m c :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.Forall, StableHlo.reshape_writes, Finset.mem_singleton]
          exact StableHlo.devRef_ne_of_ne (by decide)))
    _ = Qm m c := W2_v1 m ρ c

theorem W4_v3 (c : Dev nD) : (W4 m ρ c (Proc.devRef .tc main_v3) : A_SD) = Km m c := by
  rw [show W4 m ρ c (Proc.devRef .tc main_v3) = (dat1 (V3 m ρ) c).arrAt 3 cfg1.N from W4_arr m ρ c 3, final1]
  unfold Km
  rw [show V3 m ρ c main_arg1 = _ from W3_arg1 m ρ c, show V3 m ρ c main_arg5 = _ from W3_arg5 m ρ c, show V3 m ρ c main_v2 = _ from W3_v2 m ρ c]

theorem W5_v4_0 (c : Dev nD) : (W5 m ρ c (Proc.devRef .tc main_v4_0) : A_SS) = Em m c := by
  rw [show W5 m ρ c (Proc.devRef .tc main_v4_0) = (dat2 (V4 m ρ) c).arrAt 2 cfg2.N from W5_arr m ρ c 2, final2_e]
  unfold Em
  rw [show V4 m ρ c main_v1 = _ from W4_v1 m ρ c, show V4 m ρ c main_v3 = _ from W4_v3 m ρ c]

theorem W5_v4_1 (c : Dev nD) : (W5 m ρ c (Proc.devRef .tc main_v4_1) : A_S1) = rowsum (Em m c) := by
  rw [show W5 m ρ c (Proc.devRef .tc main_v4_1) = (dat2 (V4 m ρ) c).arrAt 3 cfg2.N from W5_arr m ρ c 3, final2_d]
  unfold Em
  rw [show V4 m ρ c main_v1 = _ from W4_v1 m ρ c, show V4 m ρ c main_v3 = _ from W4_v3 m ρ c]

theorem W6_v4_1 (c : Dev nD) : W6 m ρ c (Proc.devRef .tc main_v4_1) = rowsum (Em m c) :=
  calc W6 m ρ c (Proc.devRef .tc main_v4_1)
    _ = W5 m ρ c (Proc.devRef .tc main_v4_1) := StableHlo.after_of_forall_not_mem (b := Proc.devRef .tc main_v4_1) _ _ (List.forall_iff_forall_mem.mp (by
          simp only [hostOps3, List.Forall, StableHlo.reshape_writes, Finset.mem_singleton]
          exact StableHlo.devRef_ne_of_ne (by decide)))
    _ = rowsum (Em m c) := W5_v4_1 m ρ c

theorem W7_v4_0 (c : Dev nD) : W7 m ρ c (Proc.devRef .tc main_v4_0) = Em m c :=
  calc W7 m ρ c (Proc.devRef .tc main_v4_0)
    _ = W6 m ρ c (Proc.devRef .tc main_v4_0) := W7_of_ne m ρ c main_v4_0 (by decide)
    _ = W5 m ρ c (Proc.devRef .tc main_v4_0) := StableHlo.after_of_forall_not_mem (b := Proc.devRef .tc main_v4_0) _ _ (List.forall_iff_forall_mem.mp (by
          simp only [hostOps3, List.Forall, StableHlo.reshape_writes, Finset.mem_singleton]
          exact StableHlo.devRef_ne_of_ne (by decide)))
    _ = Em m c := W5_v4_0 m ρ c

theorem W7_v6 (c : Dev nD) : (W7 m ρ c (Proc.devRef .tc main_v6) : A_SD) = scaled (Vm m c) (rowsum (Em m c)) := by
  rw [show W7 m ρ c (Proc.devRef .tc main_v6) = (dat3 (V6 m ρ) c).arrAt 4 cfg3.N from W7_arr m ρ c 4, final3]
  unfold Vm
  rw [show V6 m ρ c main_arg2 = _ from W6_arg2 m ρ c, show V6 m ρ c main_arg7 = _ from W6_arg7 m ρ c, show V6 m ρ c main_v5 = _ from W6_v5 m ρ c,
    show V6 m ρ c main_v4_1 = _ from W6_v4_1 m ρ c]

/-- The result array after the run. -/
theorem result_value (c : Dev nD) : ((dat4 (F := Ideal) (V7 m ρ) c).arrAt 2 cfg4.N : A_SD) = pv (Em m c) (scaled (Vm m c) (rowsum (Em m c))) := by
  rw [final4, show V7 m ρ c main_v4_0 = _ from W7_v4_0 m ρ c, show V7 m ρ c main_v6 = _ from W7_v6 m ρ c]

end Cert.KernelIdeal.HandValue

end
-- ==== Proof.Finite.lean ====
/-
  The precondition read back: "|x| < +inf at every entry of every argument" says every entry of every argument is a
  real number (an extended real whose absolute value is below +inf is neither infinity).
-/
import proofs.«123334_j33835752358180_2_alg».proof.Pre_finite_inputs
import proofs.«123334_j33835752358180_2_alg».proof.Proof.Bridge
import Idealize.ShloMosaic.Lib.ReduceAll
import Idealize.ShloMosaic.Lib.ValueIdx
import Idealize.ShloMosaic.Lib.Pipeline.Value

noncomputable section

namespace Cert.Spec

open Idealize.ShloMosaic Idealize.ShloMosaic.ValueIdx

/-- The float word 0x7F800000 is +inf. -/
theorem ofBits_inf : Ideal.ofBits .f32 0x7F800000#32 = (⊤ : EReal) := by
  simp [Ideal.ofBits, Ideal.ieee]

/-- An extended real whose absolute value compares below +inf is a real. -/
theorem isReal_of_abs_lt (x : EReal) (h : Ideal.cmp .olt (max x (-x)) (Ideal.ofBits .f32 0x7F800000#32) = 1#1) : IsReal x := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

instance : Subsingleton (⟨0, ![]⟩ : Shape).Idx := ⟨fun a b => funext fun d => d.elim0⟩

/-- One conjunct of the precondition — the conjunction over all entries of "|x| < +inf" — gives every entry real. -/
theorem isReal_of_all {s : Shape} {axes : List (Fin s.rank)} (x : FVec Ideal s .f32) (y : FVec Ideal s .f32)
    (hy : ∀ i, y i = Ideal.ofBits .f32 0x7F800000#32) (init : (⟨0, ![]⟩ : Shape).Idx → BitVec 1)
    (hred : s.ReducesTo axes (⟨0, ![]⟩ : Shape)) (hu : 0 < (⟨0, ![]⟩ : Shape).numel)
    (e : Host.reduce IntOp.andi (cmpf (F := Ideal) (φ := .f32) .olt (Host.absf (F := Ideal) (φ := .f32) x) y) init hred hu ix0 = 1#1) (i : s.Idx) : IsReal (x i) := by
  have h := Host.reduce_andi_all _ init hred hu ix0 e i
  refine isReal_of_abs_lt (x i) ?_
  rw [← hy i]
  exact h

/-- A scalar +inf laid over a whole array reads +inf at every index. -/
theorem bcast_inf_apply {s : Shape} (h : (⟨0, ![]⟩ : Shape).BroadcastsInDim s (![] : Fin 0 → Fin s.rank)) (i : s.Idx) :
    broadcastInDim s ![] h (constant (F := Ideal) (⟨0, ![]⟩ : Shape) .f32 0x7F800000#32) i = Ideal.ofBits .f32 0x7F800000#32 :=
  broadcastInDim_apply _ h _ i ix0 (fun a => a.elim0)

section
open Cert.Pre_finite_inputs Cert.Pre_finite_inputs.Facts
variable [Cert.Pre_finite_inputs.Facts]

/-- The whole precondition: every entry of each of the nine arguments is real. -/
theorem real_inputs (x0 x1 x2 : FVec Ideal S4096x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (h : fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  have h0 := congrFun h ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all x0 _ (bcast_inf_apply _) _ _ _ e0, isReal_of_all x1 _ (bcast_inf_apply _) _ _ _ e1,
    isReal_of_all x2 _ (bcast_inf_apply _) _ _ _ e2, isReal_of_all x3 _ (bcast_inf_apply _) _ _ _ e3,
    isReal_of_all x4 _ (bcast_inf_apply _) _ _ _ e4, isReal_of_all x5 _ (bcast_inf_apply _) _ _ _ e5,
    isReal_of_all x6 _ (bcast_inf_apply _) _ _ _ e6, isReal_of_all x7 _ (bcast_inf_apply _) _ _ _ e7,
    isReal_of_all x8 _ (bcast_inf_apply _) _ _ _ e8⟩
end

end Cert.Spec

end
-- ==== Proof.lean ====
/-
  A single attention head: three projections x·W + b, the scores e = exp((Q Kᵀ)/1024), the weights e(i,j)/den(j) with
  den(j) = Σ_k e(j,k) the row sum at the COLUMN's index, and the product with the value projection.
  The kernel program computes it in five tiled regions — Q and K projections, the scores with their row sums
  accumulated over column blocks, the value projection divided row by row by the row sums, and e·V' accumulated over
  row blocks — and multiplies the scores by 2⁻¹⁰ where the reference divides by 1024.

  Frames: each region is run point by point against its proof data and the eight items of the program are chained
  (Proof/KiRegion*, KiRun, KiFrame for the idealized program; the Kb* modules are the same text for the word-level one).
  The one rewrite of the ideal pass, a round trip through the narrow format removed, is its rule's statement.
  Values: at the extended reals each region's output array is a closed function of what it read (Proof/KiValue*); composed
  (Proof/KiValue) the result is  Σ_j e(i,j)·(V(j,d)/den(j)).  The reference reads  Σ_j (e(i,j)/den(j))·V(j,d)
  (Proof/RefG, over its generated run).  The two agree once every den(j) is nonzero, by commutativity and associativity
  of the product alone; den(j) is a finite sum of exponentials of reals — positive reals — because the arguments the
  scores read are finite (Proof/Finite reads the precondition back; Proof/Bridge has the law).
-/
import proofs.«123334_j33835752358180_2_alg».proof.Defs
import proofs.«123334_j33835752358180_2_alg».proof.Proof.Gen.Kernel
import proofs.«123334_j33835752358180_2_alg».proof.Proof.Gen.KernelIdeal
import proofs.«123334_j33835752358180_2_alg».proof.Proof.Gen.ReferenceIdeal
import proofs.«123334_j33835752358180_2_alg».proof.Proof.Gen.Pre_finite_inputs
import proofs.«123334_j33835752358180_2_alg».proof.Proof.Gen.ReferenceIdeal.Run
import proofs.«123334_j33835752358180_2_alg».proof.Proof.Gen.ReferenceIdeal.Read
import proofs.«123334_j33835752358180_2_alg».proof.Proof.KbFrame
import proofs.«123334_j33835752358180_2_alg».proof.Proof.KiFrame
import proofs.«123334_j33835752358180_2_alg».proof.Proof.KiValue
import proofs.«123334_j33835752358180_2_alg».proof.Proof.Finite
import proofs.«123334_j33835752358180_2_alg».proof.Proof.RefG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite: widening after narrowing, removed; at the extended reals both format changes are the identity. -/
theorem preserves : Cert.preserves_Kernel_KernelIdeal :=
  IdealRules.truncf_extf.statement _ .f32 .bf16

/-- Both programs end with the result  Σ_j e(i,j)·(V(j,d)/den(j)): the kernel's composed regions by construction, the
    reference's run by the law of Proof/Bridge under the finiteness the precondition gives. -/
theorem algebraic : Cert.algebraic_KernelIdeal_ReferenceIdeal := by
  intro m ρ m' ρ' hpre hagree
  refine ⟨fun c => Cert.Spec.pv (Cert.KernelIdeal.HandValue.Em m c)
    (Cert.Spec.scaled (Cert.KernelIdeal.HandValue.Vm m c) (Cert.Spec.rowsum (Cert.KernelIdeal.HandValue.Em m c))), ?_, ?_⟩
  · exact (θ_run Cert.KernelIdeal.defs _ _).mono
      (fun _ h c => ⟨(h c).1.trans (Cert.KernelIdeal.HandValue.result_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r1, -, r3, r4, r5, r6, -, -⟩ := Cert.Spec.real_inputs _ _ _ _ _ _ _ _ _ (hpre c)
    rw [Cert.ReferenceIdeal.Read.val_main_v21_eq, Cert.Spec.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact Cert.Spec.refOut_eq_kernel _ _ _ _ _ _ _ _ _ r0 r1 r3 r4 r5 r6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
